-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S512x512 : Shape := ⟨2, ![512, 512]⟩
abbrev S32768x512 : Shape := ⟨2, ![32768, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S32768x512 : S_.BroadcastsInDim S32768x512 (![] : Fin 0 → Fin S32768x512.rank)
  reducesTo_S32768x512_S_d0_1 : S32768x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S512 .f32) (main_arg22 : FVec F S512x512 .f32) (main_arg23 : FVec F S512 .f32) (main_v98 : IVec S_ 1) (main_v101 : IVec S512x512 1) (main_c_39 : IVec S_ 1) : IVec S_ 1 :=
  let main_v102 : IVec S_ 1 := (fun x v => Host.reduce IntOp.andi x v reducesTo_S512x512_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  main_v118

def fn_part5 {F : FTy → Type} [FloatOps F] (main_arg18 : FVec F S512x1 .f32) (main_arg19 : FVec F S1 .f32) (main_arg20 : FVec F S512x512 .f32) (main_arg21 : FVec F S512 .f32) (main_arg22 : FVec F S512x512 .f32) (main_arg23 : FVec F S512 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S512x1 .f32 := Host.absf main_arg18
  let main_cst_34 : FVec F S_ .f32 := constant S_ .f32 0x7F800000#32
  let main_v90 : FVec F S512x1 .f32 := broadcastInDim S512x1 ![] bcast_S_S512x1 main_cst_34
  let main_v91 : IVec S512x1 1 := cmpf .olt main_v89 main_v90
  let main_c_35 : IVec S_ 1 := constantI S_ 1 1#1
  let main_v92 : IVec S_ 1 := (fun x v => Host.reduce IntOp.andi x v reducesTo_S512x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S512x512 .f32 := Host.absf main_arg20
  let main_cst_38 : FVec F S_ .f32 := constant S_ .f32 0x7F800000#32
  let main_v100 : FVec F S512x512 .f32 := broadcastInDim S512x512 ![] bcast_S_S512x512 main_cst_38
  let main_v101 : IVec S512x512 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v63 : IVec S_ 1) (main_v67 : IVec S_ 1) : IVec S_ 1 :=
  let main_v68 : IVec S_ 1 := andi main_v63 main_v67
  let main_v69 : FVec F S512x1 .f32 := Host.absf main_arg14
  let main_cst_26 : FVec F S_ .f32 := constant S_ .f32 0x7F800000#32
  let main_v70 : FVec F S512x1 .f32 := broadcastInDim S512x1 ![] bcast_S_S512x1 main_cst_26
  let main_v71 : IVec S512x1 1 := cmpf .olt main_v69 main_v70
  let main_c_27 : IVec S_ 1 := constantI S_ 1 1#1
  let main_v72 : IVec S_ 1 := (fun x v => Host.reduce IntOp.andi x v reducesTo_S512x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S512x1 .f32 := Host.absf main_arg16
  let main_cst_30 : FVec F S_ .f32 := constant S_ .f32 0x7F800000#32
  let main_v80 : FVec F S512x1 .f32 := broadcastInDim S512x1 ![] bcast_S_S512x1 main_cst_30
  let main_v81 : IVec S512x1 1 := cmpf .olt main_v79 main_v80
  let main_c_31 : IVec S_ 1 := constantI S_ 1 1#1
  let main_v82 : IVec S_ 1 := (fun x v => Host.reduce IntOp.andi x v reducesTo_S512x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S1 .f32) (main_arg8 : FVec F S512x1 .f32) (main_arg9 : FVec F S1 .f32) (main_arg10 : FVec F S512x512 .f32) (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S1024x512 .f32) (main_arg5 : FVec F S512 .f32) (main_arg6 : FVec F S512x1 .f32) (main_arg7 : FVec F S1 .f32) (main_arg8 : FVec F S512x1 .f32) (main_arg9 : FVec F S1 .f32) (main_arg10 : FVec F S512x512 .f32) (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32768x1024 .f32) (main_arg1 : FVec F S512x512 .f32) (main_arg2 : FVec F S32768x512 .f32) (main_arg3 : FVec F S32768x512 .f32) (main_arg4 : FVec F S1024x512 .f32) (main_arg5 : FVec F S512 .f32) (main_arg6 : FVec F S512x1 .f32) (main_arg7 : FVec F S1 .f32) (main_arg8 : FVec F S512x1 .f32) (main_arg9 : FVec F S1 .f32) (main_arg10 : FVec F S512x512 .f32) (main_arg11 : FVec F S512 .f32) (main_arg12 : FVec F S512x512 .f32) (main_arg13 : FVec F S512 .f32) (main_arg14 : FVec F S512x1 .f32) (main_arg15 : FVec F S1 .f32) (main_arg16 : FVec F S512x1 .f32) (main_arg17 : FVec F S1 .f32) (main_arg18 : FVec F S512x1 .f32) (main_arg19 : FVec F S1 .f32) (main_arg20 : FVec F S512x512 .f32) (main_arg21 : FVec F S512 .f32) (main_arg22 : FVec F S512x512 .f32) (main_arg23 : FVec F S512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32768x1024 : Shape := ⟨2, ![32768, 1024]⟩
abbrev S512x512 : Shape := ⟨2, ![512, 512]⟩
abbrev S32768x512 : Shape := ⟨2, ![32768, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S512x1024 : Shape := ⟨2, ![512, 1024]⟩

abbrev nBuf : Space → Nat
  | .hbm => 48
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x1, .f32⟩
  | .hbm, ⟨15, _⟩ => ⟨S1, .f32⟩
  | .hbm, ⟨16, _⟩ => ⟨S512x1, .f32⟩
  | .hbm, ⟨17, _⟩ => ⟨S1, .f32⟩
  | .hbm, ⟨18, _⟩ => ⟨S512x1, .f32⟩
  | .hbm, ⟨19, _⟩ => ⟨S1, .f32⟩
  | .hbm, ⟨20, _⟩ => ⟨S512x512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S1024x512, .bf16⟩
  | .hbm, ⟨25, _⟩ => ⟨S512x512, .bf16⟩
  | .hbm, ⟨26, _⟩ => ⟨S512x512, .bf16⟩
  | .hbm, ⟨27, _⟩ => ⟨S512x512, .bf16⟩
  | .hbm, ⟨28, _⟩ => ⟨S512x512, .bf16⟩
  | .hbm, ⟨29, _⟩ => ⟨S512x512, .bf16⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1, .f32⟩
  | .hbm, ⟨37, _⟩ => ⟨S1x1, .f32⟩
  | .hbm, ⟨38, _⟩ => ⟨S1, .f32⟩
  | .hbm, ⟨39, _⟩ => ⟨S1, .f32⟩
  | .hbm, ⟨40, _⟩ => ⟨S1x1, .f32⟩
  | .hbm, ⟨41, _⟩ => ⟨S512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S32768x512, .f32⟩
  | .hbm, ⟨46, _⟩ => ⟨S32768x512, .f32⟩
  | .hbm, ⟨47, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1024x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x1, .f32⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x1, .f32⟩
  | .local _ .vmem, ⟨19, _⟩ => ⟨S512x512, .bf16⟩
  | .local _ .vmem, ⟨20, _⟩ => ⟨S512x512, .bf16⟩
  | .local _ .vmem, ⟨21, _⟩ => ⟨S1x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_v21_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S512_S1x512 : S512.ShapeCasts S1x512
  shapeCasts_S512x1_S1x512 : S512x1.ShapeCasts S1x512
  shapeCasts_S1_S1x1 : S1.ShapeCasts S1x1
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S512x512 : S512x512.ShapeCasts S512x512
  reduces_S512x512_S512 : S512x512.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  broadcasts_S512x1_S512x512 : S512x1.Broadcasts S512x512
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S32768x512.size a
  hwx0_3 : ∀ i : grid0.Coords, EltTy.bits .f32 = 32 ∨ (Rect.block (s := S32768x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x512.size a ≤ S1x512.size a
  hwx0_18 : ∀ i : grid0.Coords, EltTy.bits .f32 = 32 ∨ (Rect.block (s := S1x512) S1x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S32768x512.size a
  hwx0_19 : ∀ i : grid0.Coords, EltTy.bits .f32 = 32 ∨ (Rect.block (s := S32768x512) S512x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S32768x512.size a
  hwx0_20 : ∀ i : grid0.Coords, EltTy.bits .f32 = 32 ∨ (Rect.block (s := S32768x512) S512x512.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S32768x512.size a
  hwx0_21 : ∀ i : grid0.Coords, EltTy.bits .f32 = 32 ∨ (Rect.block (s := S32768x512) S512x512.size (cc0_transform_21 i) (hinb0_21 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v3) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v4) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20) S1x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v21_0) S512x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v21_1) S512x512.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v21_2) S512x512.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S512x512 : Shape := ⟨2, ![512, 512]⟩
abbrev S32768x512 : Shape := ⟨2, ![32768, 512]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S32768x1 : Shape := ⟨2, ![32768, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x1, .f32⟩
  | .hbm, ⟨15, _⟩ => ⟨S1, .f32⟩
  | .hbm, ⟨16, _⟩ => ⟨S512x1, .f32⟩
  | .hbm, ⟨17, _⟩ => ⟨S1, .f32⟩
  | .hbm, ⟨18, _⟩ => ⟨S512x1, .f32⟩
  | .hbm, ⟨19, _⟩ => ⟨S1, .f32⟩
  | .hbm, ⟨20, _⟩ => ⟨S512x512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S1x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x1, .f32⟩
  | .hbm, ⟨48, _⟩ => ⟨S1x1, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S1x1, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S1x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S1x512, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x1, .f32⟩
  | .hbm, ⟨83, _⟩ => ⟨S1x1, .f32⟩
  | .hbm, ⟨84, _⟩ => ⟨S32768x1, .f32⟩
  | .hbm, ⟨85, _⟩ => ⟨S32768x1, .f32⟩
  | .hbm, ⟨86, _⟩ => ⟨S32768x1, .f32⟩
  | .hbm, ⟨87, _⟩ => ⟨S32768x1, .f32⟩
  | .hbm, ⟨88, _⟩ => ⟨S1x1, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S1x1, .f32⟩
  | .hbm, ⟨94, _⟩ => ⟨S32768x1, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S_, .f32⟩
  | .hbm, ⟨99, _⟩ => ⟨S32768x1, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x512, .f32⟩
  | .hbm, ⟨105, _⟩ => ⟨S32768x512, .f32⟩
  | .hbm, ⟨106, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  dot_S32768x1024_S1024x512_S32768x512_1_0_0_1_n_n_wf : DotDims.WF S32768x1024 S1024x512 S32768x512 [1] [0] [0] [1] [] []
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.KernelIndex.lean ====
/-
  Where each block sits in its array.

  The grid has 64 points. At point `t` the three batch inputs (x_bar, h, c) and the three results are cut along the
  batch axis: the block holds rows `512·t … 512·t + 511` and every column, so row `p` of the block is row
  `512·t + p` of the array. Every weight window is its whole array at every point. These facts about the printed
  index maps are decided once over the 64 points; the rest is arithmetic on coordinates. The 64 blocks of a result
  tile its 32768 rows: row `r` lies in the block of point `r / 512`.
-/
import proofs.«150214_j2525440770621_2_alg».proof.Proof.KernelIdealValueP
import Idealize.ShloMosaic.Lib.ValueIdx

noncomputable section

namespace Cert.GatedCell.Kernel

open Idealize.ShloMosaic Idealize.ShloMosaic.TcCoe Idealize.ShloMosaic.ValueIdx Idealize.SL.Sem
open Cert.KernelIdeal Cert.KernelIdeal.Gen
open Idealize.ShloMosaic.Pipeline (Dat)

/-- Every access of the body starts at the origin of its buffer. -/
theorem zero_offsets : (![0, 0] : Fin 2 → Nat) = fun _ => 0 := funext fun a => by fin_cases a <;> rfl

/-- The batch windows' block index at point `t` is `(t, 0)`. -/
theorem batch_index : ∀ t : Fin cfg0.N,
    win0_0.index t (0 : Fin 2) = t.val ∧ win0_0.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_19.index t (0 : Fin 2) = t.val ∧ win0_19.index t (1 : Fin 2) = 0
    ∧ win0_20.index t (0 : Fin 2) = t.val ∧ win0_20.index t (1 : Fin 2) = 0
    ∧ win0_21.index t (0 : Fin 2) = t.val ∧ win0_21.index t (1 : Fin 2) = 0 :=
  (by decide +kernel : ∀ t : Fin grid0.N, _)

/-- The weight windows' block index is `(0, 0)` at every point. -/
theorem weight_index : ∀ t : Fin cfg0.N,
    win0_1.index t (0 : Fin 2) = 0 ∧ win0_1.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0 :=
  (by decide +kernel : ∀ t : Fin grid0.N, _)

/-- The array row that row `p` of the block of point `t` is. -/
def rowAt (t : Fin cfg0.N) (p : Fin 512) : Fin 32768 :=
  ⟨t.val * 512 + p.val, by
    have ht := t.isLt
    have hN : cfg0.N = 64 := N_0
    have hp := p.isLt
    omega⟩

theorem rowAt_val (t : Fin cfg0.N) (p : Fin 512) : (rowAt t p).val = t.val * 512 + p.val := rfl

/-! ## A block index as an array index -/

theorem emb0 (t : Fin cfg0.N) (p : Fin 512) (k : Fin 1024) :
    ((cfg0.win 0).blk t).view.emb (ix2 p k) = ix2 (rowAt t p) k := by
  obtain ⟨e0, e1, -⟩ := batch_index t
  funext a; apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

theorem emb2 (t : Fin cfg0.N) (p k : Fin 512) :
    ((cfg0.win 2).blk t).view.emb (ix2 p k) = ix2 (rowAt t p) k := by
  obtain ⟨-, -, e0, e1, -⟩ := batch_index t
  funext a; apply Fin.ext
  match a with
  | ⟨0, _⟩ => show win0_2.index t (0 : Fin 2) * 512 + 1 * p.val = t.val * 512 + p.val; rw [e0]; omega
  | ⟨1, _⟩ => show win0_2.index t (1 : Fin 2) * 512 + 1 * k.val = k.val; rw [e1]; omega

theorem emb3 (t : Fin cfg0.N) (p k : Fin 512) :
    ((cfg0.win 3).blk t).view.emb (ix2 p k) = ix2 (rowAt t p) k := by
  obtain ⟨-, -, -, -, e0, e1, -⟩ := batch_index t
  funext a; apply Fin.ext
  match a with
  | ⟨0, _⟩ => show win0_3.index t (0 : Fin 2) * 512 + 1 * p.val = t.val * 512 + p.val; rw [e0]; omega
  | ⟨1, _⟩ => show win0_3.index t (1 : Fin 2) * 512 + 1 * k.val = k.val; rw [e1]; omega

theorem emb19 (t : Fin cfg0.N) (p q : Fin 512) :
    ((cfg0.win 19).blk t).view.emb (ix2 p q) = ix2 (rowAt t p) q := by
  obtain ⟨-, -, -, -, -, -, e0, e1, -⟩ := batch_index t
  funext a; apply Fin.ext
  match a with
  | ⟨0, _⟩ => show win0_19.index t (0 : Fin 2) * 512 + 1 * p.val = t.val * 512 + p.val; rw [e0]; omega
  | ⟨1, _⟩ => show win0_19.index t (1 : Fin 2) * 512 + 1 * q.val = q.val; rw [e1]; omega

theorem emb20 (t : Fin cfg0.N) (p q : Fin 512) :
    ((cfg0.win 20).blk t).view.emb (ix2 p q) = ix2 (rowAt t p) q := by
  obtain ⟨-, -, -, -, -, -, -, -, e0, e1, -⟩ := batch_index t
  funext a; apply Fin.ext
  match a with
  | ⟨0, _⟩ => show win0_20.index t (0 : Fin 2) * 512 + 1 * p.val = t.val * 512 + p.val; rw [e0]; omega
  | ⟨1, _⟩ => show win0_20.index t (1 : Fin 2) * 512 + 1 * q.val = q.val; rw [e1]; omega

theorem emb21 (t : Fin cfg0.N) (p q : Fin 512) :
    ((cfg0.win 21).blk t).view.emb (ix2 p q) = ix2 (rowAt t p) q := by
  obtain ⟨-, -, -, -, -, -, -, -, -, -, e0, e1⟩ := batch_index t
  funext a; apply Fin.ext
  match a with
  | ⟨0, _⟩ => show win0_21.index t (0 : Fin 2) * 512 + 1 * p.val = t.val * 512 + p.val; rw [e0]; omega
  | ⟨1, _⟩ => show win0_21.index t (1 : Fin 2) * 512 + 1 * q.val = q.val; rw [e1]; omega

/-! ## The three batch inputs' blocks -/

section blocks

variable (m : (ℓ : Loc nD τ sig) → Buf (Elt Ideal) ℓ) (c : Dev nD)

/-- Row `p` of the x_bar block of point `t` is row `512·t + p` of x_bar. -/
theorem iblk0_apply (t : Fin cfg0.N) (p : Fin 512) (k : Fin 1024) :
    iblk m c 0 t (ix2 p k) = m ((c : Thread nD τ).loc main_arg0) (ix2 (rowAt t p) k) := by
  show V m c main_arg0 (((cfg0.win 0).blk t).view.emb (ix2 p k)) = _
  rw [emb0, V_main_arg0]

/-- Row `p` of the h block of point `t` is row `512·t + p` of h. -/
theorem iblk2_apply (t : Fin cfg0.N) (p k : Fin 512) :
    iblk m c 2 t (ix2 p k) = m ((c : Thread nD τ).loc main_arg2) (ix2 (rowAt t p) k) := by
  show V m c main_arg2 (((cfg0.win 2).blk t).view.emb (ix2 p k)) = _
  rw [emb2, V_main_arg2]

/-- Row `p` of the c block of point `t` is row `512·t + p` of c. -/
theorem iblk3_apply (t : Fin cfg0.N) (p k : Fin 512) :
    iblk m c 3 t (ix2 p k) = m ((c : Thread nD τ).loc main_arg3) (ix2 (rowAt t p) k) := by
  show V m c main_arg3 (((cfg0.win 3).blk t).view.emb (ix2 p k)) = _
  rw [emb3, V_main_arg3]

end blocks

/-! ## The results' blocks tile their arrays -/

theorem mem_blk19 (t : Fin cfg0.N) (i : S32768x512.Idx) :
    i ∈ ((cfg0.win 19).blk t).view.set ↔ ∀ a : Fin 2, win0_19.index t a * S512x512.size a ≤ (i a).val
      ∧ (i a).val < win0_19.index t a * S512x512.size a + S512x512.size a := by
  show i ∈ ((View.whole main_v21_0).slice (win0_19.rect t)).set ↔ _
  rw [View.set_slice_whole, Rect.mem_set_unit]
  exact Iff.rfl

/-- Every index of the array is in the block of the point `row / 512`. -/
theorem cover19 (i : S32768x512.Idx) :
    ∃ t : Fin cfg0.N, (cfg0.win 19).flush t = true ∧ i ∈ ((cfg0.win 19).blk t).view.set := by
  have hi0 : (i 0).val < 32768 := (i 0).isLt
  have hi1 : (i 1).val < 512 := (i 1).isLt
  have hN : cfg0.N = 64 := N_0
  have ht : (i 0).val / 512 < cfg0.N := by omega
  obtain ⟨-, -, -, -, -, -, e0, e1, -⟩ := batch_index ⟨(i 0).val / 512, ht⟩
  refine ⟨⟨(i 0).val / 512, ht⟩, flush0_19 _, ?_⟩
  rw [mem_blk19]
  intro a
  match a with
  | ⟨0, _⟩ =>
    show win0_19.index ⟨(i 0).val / 512, ht⟩ (0 : Fin 2) * 512 ≤ (i 0).val
      ∧ (i 0).val < win0_19.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_19.index ⟨(i 0).val / 512, ht⟩ (1 : Fin 2) * 512 ≤ (i 1).val
      ∧ (i 1).val < win0_19.index ⟨(i 0).val / 512, ht⟩ (1 : Fin 2) * 512 + 512
    rw [e1]; omega

theorem mem_blk20 (t : Fin cfg0.N) (i : S32768x512.Idx) :
    i ∈ ((cfg0.win 20).blk t).view.set ↔ ∀ a : Fin 2, win0_20.index t a * S512x512.size a ≤ (i a).val
      ∧ (i a).val < win0_20.index t a * S512x512.size a + S512x512.size a := by
  show i ∈ ((View.whole main_v21_1).slice (win0_20.rect t)).set ↔ _
  rw [View.set_slice_whole, Rect.mem_set_unit]
  exact Iff.rfl

/-- Every index of the array is in the block of the point `row / 512`. -/
theorem cover20 (i : S32768x512.Idx) :
    ∃ t : Fin cfg0.N, (cfg0.win 20).flush t = true ∧ i ∈ ((cfg0.win 20).blk t).view.set := by
  have hi0 : (i 0).val < 32768 := (i 0).isLt
  have hi1 : (i 1).val < 512 := (i 1).isLt
  have hN : cfg0.N = 64 := N_0
  have ht : (i 0).val / 512 < cfg0.N := by omega
  obtain ⟨-, -, -, -, -, -, -, -, e0, e1, -⟩ := batch_index ⟨(i 0).val / 512, ht⟩
  refine ⟨⟨(i 0).val / 512, ht⟩, flush0_20 _, ?_⟩
  rw [mem_blk20]
  intro a
  match a with
  | ⟨0, _⟩ =>
    show win0_20.index ⟨(i 0).val / 512, ht⟩ (0 : Fin 2) * 512 ≤ (i 0).val
      ∧ (i 0).val < win0_20.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_20.index ⟨(i 0).val / 512, ht⟩ (1 : Fin 2) * 512 ≤ (i 1).val
      ∧ (i 1).val < win0_20.index ⟨(i 0).val / 512, ht⟩ (1 : Fin 2) * 512 + 512
    rw [e1]; omega

theorem mem_blk21 (t : Fin cfg0.N) (i : S32768x512.Idx) :
    i ∈ ((cfg0.win 21).blk t).view.set ↔ ∀ a : Fin 2, win0_21.index t a * S512x512.size a ≤ (i a).val
      ∧ (i a).val < win0_21.index t a * S512x512.size a + S512x512.size a := by
  show i ∈ ((View.whole main_v21_2).slice (win0_21.rect t)).set ↔ _
  rw [View.set_slice_whole, Rect.mem_set_unit]
  exact Iff.rfl

/-- Every index of the array is in the block of the point `row / 512`. -/
theorem cover21 (i : S32768x512.Idx) :
    ∃ t : Fin cfg0.N, (cfg0.win 21).flush t = true ∧ i ∈ ((cfg0.win 21).blk t).view.set := by
  have hi0 : (i 0).val < 32768 := (i 0).isLt
  have hi1 : (i 1).val < 512 := (i 1).isLt
  have hN : cfg0.N = 64 := N_0
  have ht : (i 0).val / 512 < cfg0.N := by omega
  obtain ⟨-, -, -, -, -, -, -, -, -, -, e0, e1⟩ := batch_index ⟨(i 0).val / 512, ht⟩
  refine ⟨⟨(i 0).val / 512, ht⟩, flush0_21 _, ?_⟩
  rw [mem_blk21]
  intro a
  match a with
  | ⟨0, _⟩ =>
    show win0_21.index ⟨(i 0).val / 512, ht⟩ (0 : Fin 2) * 512 ≤ (i 0).val
      ∧ (i 0).val < win0_21.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_21.index ⟨(i 0).val / 512, ht⟩ (1 : Fin 2) * 512 ≤ (i 1).val
      ∧ (i 1).val < win0_21.index ⟨(i 0).val / 512, ht⟩ (1 : Fin 2) * 512 + 512
    rw [e1]; omega

end Cert.GatedCell.Kernel

end
-- ==== Proof.Spec.lean ====
/-
  The gated recurrent cell of this certificate, ONE BATCH ROW AT A TIME, over the extended reals.

  A row of the batch enters as three vectors: `xr` (1024 entries), `hr` and `cr` (512 entries each). With the
  weights `W`:

    x      = xr · Wx + bx                                   (512 entries)
    α      = σ((hr · Wha + x · Wxa) + ba)                   (one weight per relation, 512 of them)
    r      = α · rel                                        (the weighted combination of the relations)
    z      = hr + r
    i      = σ((⟨hr, whi⟩ + ⟨cr, wci⟩) + bi)                (a scalar)
    c'     = (1 - i) · cr + i · tanh((z · Wzc + hr · Whc) + bc)
    o      = σ(((⟨z, wzo⟩ + ⟨hr, who⟩) + ⟨c', wco⟩) + bo)   (a scalar)
    h'     = o · tanh c'

  Every entry of a result row depends on that row of the three inputs only, so a block of rows computes the same
  function as the whole batch. The biases that are always added together enter pre-summed (`ba`, `bi`, `bc`, `bo`);
  a program that adds them one at a time between the products computes the same sums, addition on the extended
  reals being associative and commutative (`add_bias_pair`, `add_bias_triple`). The logistic function written out
  as `1 / (1 + e^(-x))` with the host's quotient is the same function (`div_one_add_exp_neg`).
-/
import Idealize.ShloMosaic.PureOps.Ideal
import Idealize.ShloMosaic.Lib.ValueIdx

noncomputable section

namespace Cert.GatedCell

open Idealize.ShloMosaic Idealize.ShloMosaic.ValueIdx

/-- The number one as both programs write it: the float pattern of `1.0`. -/
abbrev one : EReal := Ideal.ofBits .f32 0x3F800000#32

/-- The float pattern of `1.0` denotes the real number one. -/
theorem one_eq : one = (1 : EReal) := by
  simp [one, Ideal.ofBits, Ideal.ieee, -EReal.coe_mul]; norm_num

/-- The logistic function spelt as a quotient, `1 / (1 + e^(-x))`, is the logistic function. -/
theorem div_one_add_exp_neg (x : EReal) : Ideal.div one (one + Ideal.exp (-x)) = Ideal.logistic x := by
  rw [one_eq]; rfl

/-- Two biases added one after each product are the two products plus the summed biases. -/
theorem add_bias_pair (a b₁ c b₂ : EReal) : ((a + b₁) + c) + b₂ = (a + c) + (b₁ + b₂) := by
  rw [add_assoc (a + b₁) c b₂, add_add_add_comm]

/-- Three biases added one after each product are the three products plus the summed biases. -/
theorem add_bias_triple (a b₁ c b₂ d b₃ : EReal) :
    ((((a + b₁) + c) + b₂) + d) + b₃ = ((a + c) + d) + ((b₁ + b₂) + b₃) := by
  rw [add_bias_pair a b₁ c b₂, add_assoc ((a + c) + (b₁ + b₂)) d b₃, add_add_add_comm (a + c) (b₁ + b₂) d b₃]

/-- The cell's weights, entry by entry; the biases that are always added together are pre-summed. -/
structure Weights where
  wx : Fin 1024 → Fin 512 → EReal
  bx : Fin 512 → EReal
  wha : Fin 512 → Fin 512 → EReal
  wxa : Fin 512 → Fin 512 → EReal
  ba : Fin 512 → EReal
  rel : Fin 512 → Fin 512 → EReal
  whi : Fin 512 → EReal
  wci : Fin 512 → EReal
  bi : EReal
  wzc : Fin 512 → Fin 512 → EReal
  whc : Fin 512 → Fin 512 → EReal
  bc : Fin 512 → EReal
  wzo : Fin 512 → EReal
  who : Fin 512 → EReal
  wco : Fin 512 → EReal
  bo : EReal

variable (W : Weights)

/-- The projected input `x = xr · Wx + bx`. -/
def xproj (xr : Fin 1024 → EReal) (j : Fin 512) : EReal := (∑ k, xr k * W.wx k j) + W.bx j

/-- The attention weight of relation `r`. -/
def attn (xr : Fin 1024 → EReal) (hr : Fin 512 → EReal) (r : Fin 512) : EReal :=
  Ideal.logistic (((∑ k, hr k * W.wha k r) + (∑ k, xproj W xr k * W.wxa k r)) + W.ba r)

/-- The weighted combination of the relations. -/
def rcomb (xr : Fin 1024 → EReal) (hr : Fin 512 → EReal) (j : Fin 512) : EReal := ∑ r, attn W xr hr r * W.rel r j

/-- `z = hr + r`. -/
def zrow (xr : Fin 1024 → EReal) (hr : Fin 512 → EReal) (j : Fin 512) : EReal := hr j + rcomb W xr hr j

/-- The input gate, a scalar per row. -/
def igate (hr cr : Fin 512 → EReal) : EReal :=
  Ideal.logistic (((∑ k, hr k * W.whi k) + (∑ k, cr k * W.wci k)) + W.bi)

/-- The new cell state from a given `z`. -/
def cnewOf (zr hr cr : Fin 512 → EReal) (j : Fin 512) : EReal :=
  (one - igate W hr cr) * cr j
    + igate W hr cr * Ideal.tanh (((∑ k, zr k * W.wzc k j) + (∑ k, hr k * W.whc k j)) + W.bc j)

/-- The new cell state. -/
def cnew (xr : Fin 1024 → EReal) (hr cr : Fin 512 → EReal) (j : Fin 512) : EReal := cnewOf W (zrow W xr hr) hr cr j

/-- The output gate from a given `z` and new cell state, a scalar per row. -/
def ogateOf (zr hr cn : Fin 512 → EReal) : EReal :=
  Ideal.logistic ((((∑ k, zr k * W.wzo k) + (∑ k, hr k * W.who k)) + (∑ k, cn k * W.wco k)) + W.bo)

/-- The new hidden state from a given `z` and new cell state. -/
def hnewOf (zr hr cn : Fin 512 → EReal) (j : Fin 512) : EReal := ogateOf W zr hr cn * Ideal.tanh (cn j)

/-- The new hidden state. -/
def hnew (xr : Fin 1024 → EReal) (hr cr : Fin 512 → EReal) (j : Fin 512) : EReal :=
  hnewOf W (zrow W xr hr) hr (cnew W xr hr cr) j

/-! ## The weights and the three results from whole arrays -/

/-- The weights read off the program's argument arrays: `relations`, `Wx`, … as the entry point receives them. -/
def argWeights
    (a1 : (⟨2, ![512, 512]⟩ : Shape).Idx → EReal) (a4 : (⟨2, ![1024, 512]⟩ : Shape).Idx → EReal)
    (a5 : (⟨1, ![512]⟩ : Shape).Idx → EReal) (a6 : (⟨2, ![512, 1]⟩ : Shape).Idx → EReal)
    (a7 : (⟨1, ![1]⟩ : Shape).Idx → EReal) (a8 : (⟨2, ![512, 1]⟩ : Shape).Idx → EReal)
    (a9 : (⟨1, ![1]⟩ : Shape).Idx → EReal) (a10 : (⟨2, ![512, 512]⟩ : Shape).Idx → EReal)
    (a11 : (⟨1, ![512]⟩ : Shape).Idx → EReal) (a12 : (⟨2, ![512, 512]⟩ : Shape).Idx → EReal)
    (a13 : (⟨1, ![512]⟩ : Shape).Idx → EReal) (a14 : (⟨2, ![512, 1]⟩ : Shape).Idx → EReal)
    (a15 : (⟨1, ![1]⟩ : Shape).Idx → EReal) (a16 : (⟨2, ![512, 1]⟩ : Shape).Idx → EReal)
    (a17 : (⟨1, ![1]⟩ : Shape).Idx → EReal) (a18 : (⟨2, ![512, 1]⟩ : Shape).Idx → EReal)
    (a19 : (⟨1, ![1]⟩ : Shape).Idx → EReal) (a20 : (⟨2, ![512, 512]⟩ : Shape).Idx → EReal)
    (a21 : (⟨1, ![512]⟩ : Shape).Idx → EReal) (a22 : (⟨2, ![512, 512]⟩ : Shape).Idx → EReal)
    (a23 : (⟨1, ![512]⟩ : Shape).Idx → EReal) : Weights where
  wx k j := a4 (ix2 k j)
  bx j := a5 (ix1 j)
  wha k r := a20 (ix2 k r)
  wxa k r := a22 (ix2 k r)
  ba r := a21 (ix1 r) + a23 (ix1 r)
  rel r j := a1 (ix2 r j)
  whi k := a6 (ix2 k (0 : Fin 1))
  wci k := a8 (ix2 k (0 : Fin 1))
  bi := a7 (ix1 (0 : Fin 1)) + a9 (ix1 (0 : Fin 1))
  wzc k j := a10 (ix2 k j)
  whc k j := a12 (ix2 k j)
  bc j := a11 (ix1 j) + a13 (ix1 j)
  wzo k := a14 (ix2 k (0 : Fin 1))
  who k := a16 (ix2 k (0 : Fin 1))
  wco k := a18 (ix2 k (0 : Fin 1))
  bo := (a15 (ix1 (0 : Fin 1)) + a17 (ix1 (0 : Fin 1))) + a19 (ix1 (0 : Fin 1))

/-- Row `b` of a matrix with `n` columns. -/
abbrev rowOf {B n : ℕ} (a : (⟨2, ![B, n]⟩ : Shape).Idx → EReal) (b : Fin B) : Fin n → EReal := fun k => a (ix2 b k)

/-- The relation combination `r` of the whole batch, index by index. -/
def wholeR (a0 : (⟨2, ![32768, 1024]⟩ : Shape).Idx → EReal) (a2 : (⟨2, ![32768, 512]⟩ : Shape).Idx → EReal) :
    (⟨2, ![32768, 512]⟩ : Shape).Idx → EReal := fun i => rcomb W (rowOf a0 (i 0)) (rowOf a2 (i 0)) (i 1)

/-- The new cell state of the whole batch, index by index. -/
def wholeC (a0 : (⟨2, ![32768, 1024]⟩ : Shape).Idx → EReal) (a2 a3 : (⟨2, ![32768, 512]⟩ : Shape).Idx → EReal) :
    (⟨2, ![32768, 512]⟩ : Shape).Idx → EReal := fun i => cnew W (rowOf a0 (i 0)) (rowOf a2 (i 0)) (rowOf a3 (i 0)) (i 1)

/-- The new hidden state of the whole batch, index by index. -/
def wholeH (a0 : (⟨2, ![32768, 1024]⟩ : Shape).Idx → EReal) (a2 a3 : (⟨2, ![32768, 512]⟩ : Shape).Idx → EReal) :
    (⟨2, ![32768, 512]⟩ : Shape).Idx → EReal := fun i => hnew W (rowOf a0 (i 0)) (rowOf a2 (i 0)) (rowOf a3 (i 0)) (i 1)

end Cert.GatedCell

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibEntryReads.lean ====
/-
  Rank-2 vectors over the extended reals, read entry by entry.

  `Reads v f` says that entry `(p, q)` of the vector `v` is `f p q`. The lemmas carry this through the vector
  operations, for any extents: a pointwise operation (sum, difference, product, logistic function, hyperbolic
  tangent) reads its operands at the same entry; a change of float format and a cast to the same shape keep every
  entry; a row [1, m] broadcast down the rows reads `(0, q)`, a single entry [1, 1] broadcast to a column reads it
  everywhere, a column [n, 1] broadcast along the rows reads `(p, 0)`; the sum of each row kept as a column [n, 1]
  is the sum of the row's entries; and a matrix product [n, k] × [k, m] accumulated into zero is the sum over the
  contracted coordinate of the products of the entries. A value built from such operations is read by composing
  the lemmas in term mode against the goal, which supplies the shapes' side conditions.
-/
import proofs.«150214_j2525440770621_2_alg».proof.Proof.LibKeepdims
import proofs.«150214_j2525440770621_2_alg».proof.Proof.LibRowOps

noncomputable section

namespace Cert.LibEntryReads

open Idealize.ShloMosaic Idealize.ShloMosaic.ValueIdx

/-- Entry `(p, q)` of `v` is `f p q`, for every row `p` and column `q`. -/
def Reads {n m : ℕ} (v : (⟨2, ![n, m]⟩ : Shape).Idx → EReal) (f : Fin n → Fin m → EReal) : Prop :=
  ∀ p q, v (ix2 p q) = f p q

section ops

variable {n m : ℕ} {φ : FTy}

/-- A vector holds its own entries. -/
theorem reads_self (v : (⟨2, ![n, m]⟩ : Shape).Idx → EReal) : Reads v (fun p q => v (ix2 p q)) := fun _ _ => rfl

/-- A splat holds its scalar everywhere. -/
theorem reads_splat (c : EReal) : Reads (broadcast (⟨2, ![n, m]⟩ : Shape) c) (fun _ _ => c) := fun _ _ => rfl

theorem reads_addf {a b : FVec Ideal ⟨2, ![n, m]⟩ φ} {f g : Fin n → Fin m → EReal} (ha : Reads a f) (hb : Reads b g) :
    Reads (addf a b) (fun p q => f p q + g p q) := fun p q => by
  show a (ix2 p q) + b (ix2 p q) = _
  rw [ha p q, hb p q]

theorem reads_subf {a b : FVec Ideal ⟨2, ![n, m]⟩ φ} {f g : Fin n → Fin m → EReal} (ha : Reads a f) (hb : Reads b g) :
    Reads (subf a b) (fun p q => f p q - g p q) := fun p q => by
  show a (ix2 p q) - b (ix2 p q) = _
  rw [ha p q, hb p q]

theorem reads_mulf {a b : FVec Ideal ⟨2, ![n, m]⟩ φ} {f g : Fin n → Fin m → EReal} (ha : Reads a f) (hb : Reads b g) :
    Reads (mulf a b) (fun p q => f p q * g p q) := fun p q => by
  show a (ix2 p q) * b (ix2 p q) = _
  rw [ha p q, hb p q]

theorem reads_logistic {a : FVec Ideal ⟨2, ![n, m]⟩ φ} {f : Fin n → Fin m → EReal} (ha : Reads a f) :
    Reads (logistic a) (fun p q => Ideal.logistic (f p q)) := fun p q => by
  show Ideal.logistic (a (ix2 p q)) = _
  rw [ha p q]

theorem reads_tanh {a : FVec Ideal ⟨2, ![n, m]⟩ φ} {f : Fin n → Fin m → EReal} (ha : Reads a f) :
    Reads (tanh a) (fun p q => Ideal.tanh (f p q)) := fun p q => by
  show Ideal.tanh (a (ix2 p q)) = _
  rw [ha p q]

/-- A change of float format keeps every entry. -/
theorem reads_truncf {ψ : FTy} {a : FVec Ideal ⟨2, ![n, m]⟩ φ} {f : Fin n → Fin m → EReal} (h : ψ.bits < φ.bits)
    (ha : Reads a f) : Reads (truncf ψ a h) f := fun p q => by
  show a (ix2 p q) = _
  exact ha p q

/-- A cast to the same shape keeps every entry. -/
theorem reads_cast_self {v : (⟨2, ![n, m]⟩ : Shape).Idx → EReal} {f : Fin n → Fin m → EReal}
    (h : (⟨2, ![n, m]⟩ : Shape).ShapeCasts ⟨2, ![n, m]⟩) (hv : Reads v f) : Reads (shapeCast ⟨2, ![n, m]⟩ v h) f := by
  rw [shapeCast_self]; exact hv

/-- A row broadcast down `a` rows holds the row's entry of the same column. -/
theorem reads_rowbcast {a : ℕ} {x : (⟨2, ![1, m]⟩ : Shape).Idx → EReal} {f : Fin 1 → Fin m → EReal}
    (h : (⟨2, ![1, m]⟩ : Shape).Broadcasts ⟨2, ![a, m]⟩) (hx : Reads x f) :
    Reads (broadcastTo ⟨2, ![a, m]⟩ x h) (fun _ q => f 0 q) := fun p q =>
  (Cert.KernelBody.broadcastTo_row_apply x h p q).trans (hx 0 q)

/-- A single entry broadcast to a column holds that entry everywhere. -/
theorem reads_unitbcast {a : ℕ} {x : (⟨2, ![1, 1]⟩ : Shape).Idx → EReal} {f : Fin 1 → Fin 1 → EReal}
    (h : (⟨2, ![1, 1]⟩ : Shape).Broadcasts ⟨2, ![a, 1]⟩) (hx : Reads x f) :
    Reads (broadcastTo ⟨2, ![a, 1]⟩ x h) (fun _ _ => f 0 0) := fun p q => by
  obtain rfl : q = 0 := Subsingleton.elim _ _
  exact (Cert.KernelBody.broadcastTo_row_apply x h p 0).trans (hx 0 0)

/-- A column broadcast along `b` columns holds the column's entry of the same row. -/
theorem reads_colbcast {b : ℕ} {v : (⟨2, ![n, 1]⟩ : Shape).Idx → EReal} {f : Fin n → Fin 1 → EReal}
    (h : (⟨2, ![n, 1]⟩ : Shape).Broadcasts ⟨2, ![n, b]⟩) (hv : Reads v f) :
    Reads (broadcastTo ⟨2, ![n, b]⟩ v h) (fun p _ => f p 0) := fun p q =>
  (Cert.LibKeepdims.broadcastTo_col_apply v h p q).trans (hv p 0)

/-- The sum of each row, kept as a column, holds the row's sum. -/
theorem reads_rowsum {v : FVec Ideal ⟨2, ![n, m]⟩ φ} {f : Fin n → Fin m → EReal} (acc : BitVec φ.bits)
    (h : (⟨2, ![n, m]⟩ : Shape).Reduces [1] ⟨1, ![n]⟩) (hφ : FKind.Formats φ) (hacc : acc = FKind.add.neutral φ hφ)
    (hs : (⟨1, ![n]⟩ : Shape).ShapeCasts ⟨2, ![n, 1]⟩) (hv : Reads v f) :
    Reads (shapeCast ⟨2, ![n, 1]⟩ (multiReduction .add [1] ⟨1, ![n]⟩ v acc h hφ hacc) hs) (fun p _ => ∑ k, f p k) :=
  fun p q => by
    obtain rfl : q = 0 := Subsingleton.elim _ _
    refine (Cert.LibKeepdims.shapeCast_col_apply _ hs p).trans ?_
    refine (Cert.LibKeepdims.rowsum_apply v acc h hφ hacc p).trans ?_
    exact Finset.sum_congr rfl fun k _ => hv p k

/-- A matrix product accumulated into zero holds the sums of products of entries. -/
theorem reads_matmul {k : ℕ} {φ₁ φ₂ : FTy}
    (w : DotDims.WF ⟨2, ![n, k]⟩ ⟨2, ![k, m]⟩ ⟨2, ![n, m]⟩ [1] [0] [0] [1] [] [])
    (prec : Option ContractPrecision) {A : FVec Ideal ⟨2, ![n, k]⟩ φ₁} {B : FVec Ideal ⟨2, ![k, m]⟩ φ₂}
    {f : Fin n → Fin k → EReal} {g : Fin k → Fin m → EReal} (hA : Reads A f) (hB : Reads B g) :
    Reads (matmul (⟨[1], [0], [0], [1], [], [], w⟩ : DotDims _ _ _) prec A B
        (constant (F := Ideal) ⟨2, ![n, m]⟩ .f32 0x00000000#32)) (fun p q => ∑ i, f p i * g i q) := fun p q =>
  (Cert.KernelBody.matmul_plain_zero_apply w prec A B p q).trans
    (Finset.sum_congr rfl fun i _ => by rw [hA p i, hB i q])

end ops

end Cert.LibEntryReads

end
-- ==== Proof.KernelPay.lean ====
/-
  The kernel body's values, entry by entry.

  Each vector the body computes is read at entry `(p, q)`: a pointwise operation reads its operands at the same
  entry, a row [1, m] broadcast down the rows reads `(0, q)`, a column [n, 1] broadcast along the rows reads
  `(p, 0)`, a row sum kept as a column reads the whole row `p`, and a matrix product accumulated into zero is the
  sum over the contracted coordinate of the products of the entries. A change of float format is the identity on
  the extended reals. Composing these facts along the body's operations shows that row `p` of each stored block is
  the gated cell of the specification applied to row `p` of the three input blocks, with the weights read off the
  weight blocks.
-/
import proofs.«150214_j2525440770621_2_alg».proof.Proof.Gen.KernelIdeal.Skeleton
import proofs.«150214_j2525440770621_2_alg».proof.Proof.Spec
import proofs.«150214_j2525440770621_2_alg».proof.Proof.LibEntryReads

noncomputable section

namespace Cert.GatedCell.Kernel

open Idealize.ShloMosaic Idealize.ShloMosaic.ValueIdx Cert.GatedCell Cert.LibEntryReads

/-! ## The weights as the body finds them, and its payloads -/

section payloads

variable (x0 : (⟨2, ![512, 1024]⟩ : Shape).Idx → EReal) (x1 : (⟨2, ![512, 512]⟩ : Shape).Idx → EReal)
  (x2 x3 : (⟨2, ![512, 512]⟩ : Shape).Idx → EReal) (x4 : (⟨2, ![1024, 512]⟩ : Shape).Idx → EReal)
  (x5 x6 x7 : (⟨2, ![1, 512]⟩ : Shape).Idx → EReal) (x8 : (⟨2, ![1, 1]⟩ : Shape).Idx → EReal)
  (x9 x10 : (⟨2, ![512, 512]⟩ : Shape).Idx → EReal) (x11 x12 x13 x14 : (⟨2, ![1, 512]⟩ : Shape).Idx → EReal)
  (x15 : (⟨2, ![1, 1]⟩ : Shape).Idx → EReal) (x16 x17 : (⟨2, ![512, 512]⟩ : Shape).Idx → EReal)
  (x18 : (⟨2, ![1, 512]⟩ : Shape).Idx → EReal)

/-- The weights read off the sixteen weight blocks the body loads: the matrices entry by entry, the row-shaped
    vectors along their one row, the two pre-summed scalar biases at their one entry. -/
def blockWeights : Weights where
  wx k j := x4 (ix2 k j)
  bx j := x5 (ix2 (0 : Fin 1) j)
  wha k r := x16 (ix2 k r)
  wxa k r := x17 (ix2 k r)
  ba r := x18 (ix2 (0 : Fin 1) r)
  rel r j := x1 (ix2 r j)
  whi k := x6 (ix2 (0 : Fin 1) k)
  wci k := x7 (ix2 (0 : Fin 1) k)
  bi := x8 (ix2 (0 : Fin 1) (0 : Fin 1))
  wzc k j := x9 (ix2 k j)
  whc k j := x10 (ix2 k j)
  bc j := x11 (ix2 (0 : Fin 1) j)
  wzo k := x12 (ix2 (0 : Fin 1) k)
  who k := x13 (ix2 (0 : Fin 1) k)
  wco k := x14 (ix2 (0 : Fin 1) k)
  bo := x15 (ix2 (0 : Fin 1) (0 : Fin 1))

local notation "W" => blockWeights x1 x4 x5 x6 x7 x8 x9 x10 x11 x12 x13 x14 x15 x16 x17 x18

open Cert.KernelIdeal Cert.KernelIdeal.Gen

/-- The relation combination: entry `(p, q)` is `r` of row `p` at `q`. -/
theorem reads_r : Reads (k0_pay2 (F := Ideal) x0 x2 x4 x5 x16 x17 x18 x1)
    (fun p q => rcomb W (rowOf x0 p) (rowOf x2 p) q) := by
  unfold k0_pay2
  exact reads_matmul _ none
    (reads_truncf _ (reads_logistic (reads_addf (reads_addf
        (reads_matmul _ none (reads_truncf _ (reads_self x2)) (reads_cast_self _ (reads_self x16)))
        (reads_matmul _ none
          (reads_truncf _ (reads_addf
            (reads_matmul _ none (reads_truncf _ (reads_self x0)) (reads_cast_self _ (reads_self x4)))
            (reads_rowbcast _ (reads_cast_self _ (reads_self x5)))))
          (reads_cast_self _ (reads_self x17))))
      (reads_rowbcast _ (reads_cast_self _ (reads_self x18))))))
    (reads_cast_self _ (reads_self x1))

/-- `z = h + r`, row by row. -/
theorem reads_z : Reads (k0_pay3 (F := Ideal) x0 x2 x4 x5 x16 x17 x18 x1)
    (fun p q => zrow W (rowOf x0 p) (rowOf x2 p) q) := by
  unfold k0_pay3
  exact reads_addf (reads_self x2) (reads_r x0 x1 x2 x4 x5 x6 x7 x8 x9 x10 x11 x12 x13 x14 x15 x16 x17 x18)

/-- The products `h · whi` that the input gate sums. -/
theorem reads_hwhi : Reads (k0_pay4 (F := Ideal) x2 x6) (fun p k => rowOf x2 p k * (W).whi k) := by
  unfold k0_pay4
  exact reads_mulf (reads_self x2) (reads_rowbcast _ (reads_cast_self _ (reads_self x6)))

/-- The new cell state from any `z` block and any block of the products `h · whi`. -/
theorem reads_c {z v33 : (⟨2, ![512, 512]⟩ : Shape).Idx → EReal} {zf : Fin 512 → Fin 512 → EReal}
    (hz : Reads z zf) (h33 : Reads v33 (fun p k => rowOf x2 p k * (W).whi k)) :
    Reads (k0_pay5 (F := Ideal) x2 x3 z v33 x7 x8 x9 x10 x11)
      (fun p q => cnewOf W (zf p) (rowOf x2 p) (rowOf x3 p) q) := by
  unfold k0_pay5
  exact reads_addf
    (reads_mulf (reads_colbcast _ (reads_subf (reads_splat _) (reads_logistic (reads_addf (reads_addf
        (reads_rowsum _ _ _ _ _ h33)
        (reads_rowsum _ _ _ _ _ (reads_mulf (reads_self x3) (reads_rowbcast _ (reads_cast_self _ (reads_self x7))))))
      (reads_unitbcast _ (reads_cast_self _ (reads_self x8))))))) (reads_self x3))
    (reads_mulf (reads_colbcast _ (reads_logistic (reads_addf (reads_addf
        (reads_rowsum _ _ _ _ _ h33)
        (reads_rowsum _ _ _ _ _ (reads_mulf (reads_self x3) (reads_rowbcast _ (reads_cast_self _ (reads_self x7))))))
      (reads_unitbcast _ (reads_cast_self _ (reads_self x8)))))) (reads_tanh (reads_addf (reads_addf
        (reads_matmul _ none (reads_truncf _ hz) (reads_cast_self _ (reads_self x9)))
        (reads_matmul _ none (reads_truncf _ (reads_self x2)) (reads_cast_self _ (reads_self x10))))
      (reads_rowbcast _ (reads_cast_self _ (reads_self x11))))))

/-- The sum `⟨z, wzo⟩` of each row, kept as a column, from any `z` block. -/
theorem reads_zwzo {z : (⟨2, ![512, 512]⟩ : Shape).Idx → EReal} {zf : Fin 512 → Fin 512 → EReal} (hz : Reads z zf) :
    Reads (k0_pay6 (F := Ideal) z x12) (fun p _ => ∑ k, zf p k * (W).wzo k) := by
  unfold k0_pay6
  exact reads_rowsum _ _ _ _ _ (reads_mulf hz (reads_rowbcast _ (reads_cast_self _ (reads_self x12))))

/-- The new hidden state from any new-cell-state block and any column of the sums `⟨z, wzo⟩`. -/
theorem reads_h {cn : (⟨2, ![512, 512]⟩ : Shape).Idx → EReal} {v74 : (⟨2, ![512, 1]⟩ : Shape).Idx → EReal}
    {cf zf : Fin 512 → Fin 512 → EReal} (hc : Reads cn cf) (h74 : Reads v74 (fun p _ => ∑ k, zf p k * (W).wzo k)) :
    Reads (k0_pay1 (F := Ideal) x2 cn v74 x13 x14 x15)
      (fun p q => hnewOf W (zf p) (rowOf x2 p) (cf p) q) := by
  unfold k0_pay1
  exact reads_mulf
    (reads_colbcast _ (reads_logistic (reads_addf (reads_addf (reads_addf h74
        (reads_rowsum _ _ _ _ _ (reads_mulf (reads_self x2) (reads_rowbcast _ (reads_cast_self _ (reads_self x13))))))
        (reads_rowsum _ _ _ _ _ (reads_mulf hc (reads_rowbcast _ (reads_cast_self _ (reads_self x14))))))
      (reads_unitbcast _ (reads_cast_self _ (reads_self x15))))))
    (reads_tanh hc)

/-! ## The three stored blocks -/

/-- The block stored to the third result: `r`. -/
theorem block_r (p q : Fin 512) :
    k0_pay2 (F := Ideal) x0 x2 x4 x5 x16 x17 x18 x1 (ix2 p q) = rcomb W (rowOf x0 p) (rowOf x2 p) q :=
  reads_r x0 x1 x2 x4 x5 x6 x7 x8 x9 x10 x11 x12 x13 x14 x15 x16 x17 x18 p q

/-- The block stored to the second result: the new cell state. -/
theorem block_c (p q : Fin 512) :
    k0_pay5 (F := Ideal) x2 x3 (k0_pay3 x0 x2 x4 x5 x16 x17 x18 x1) (k0_pay4 x2 x6) x7 x8 x9 x10 x11 (ix2 p q)
      = cnew W (rowOf x0 p) (rowOf x2 p) (rowOf x3 p) q :=
  reads_c x1 x2 x3 x4 x5 x6 x7 x8 x9 x10 x11 x12 x13 x14 x15 x16 x17 x18
    (reads_z x0 x1 x2 x4 x5 x6 x7 x8 x9 x10 x11 x12 x13 x14 x15 x16 x17 x18)
    (reads_hwhi x1 x2 x4 x5 x6 x7 x8 x9 x10 x11 x12 x13 x14 x15 x16 x17 x18) p q

/-- The block stored to the first result: the new hidden state. -/
theorem block_h (p q : Fin 512) :
    k0_pay1 (F := Ideal) x2
        (k0_pay5 x2 x3 (k0_pay3 x0 x2 x4 x5 x16 x17 x18 x1) (k0_pay4 x2 x6) x7 x8 x9 x10 x11)
        (k0_pay6 (k0_pay3 x0 x2 x4 x5 x16 x17 x18 x1) x12) x13 x14 x15 (ix2 p q)
      = hnew W (rowOf x0 p) (rowOf x2 p) (rowOf x3 p) q :=
  reads_h x1 x2 x4 x5 x6 x7 x8 x9 x10 x11 x12 x13 x14 x15 x16 x17 x18
    (reads_c x1 x2 x3 x4 x5 x6 x7 x8 x9 x10 x11 x12 x13 x14 x15 x16 x17 x18
      (reads_z x0 x1 x2 x4 x5 x6 x7 x8 x9 x10 x11 x12 x13 x14 x15 x16 x17 x18)
      (reads_hwhi x1 x2 x4 x5 x6 x7 x8 x9 x10 x11 x12 x13 x14 x15 x16 x17 x18))
    (reads_zwzo x1 x4 x5 x6 x7 x8 x9 x10 x11 x12 x13 x14 x15 x16 x17 x18
      (reads_z x0 x1 x2 x4 x5 x6 x7 x8 x9 x10 x11 x12 x13 x14 x15 x16 x17 x18)) p q

end payloads

end Cert.GatedCell.Kernel

end
-- ==== Proof.LibSwapAxes.lean ====
/-
  Two re-layings of a rank-2 vector that exchange its axes, read at an index, for any extents: the transpose
  [a, b] → [b, a], and the reshapes between a row [1, n] and a column [n, 1] (which keep the row-major order, so entry
  (r, 0) of the column is entry (0, r) of the row).
-/
import Idealize.ShloMosaic.Lib.Pipeline.Value
import Idealize.ShloMosaic.Lib.ValueIdx

noncomputable section

namespace Cert.LibSwapAxes

open Idealize.ShloMosaic Idealize.ShloMosaic.ValueIdx

variable {α : Type} {a b n : ℕ}

/-- Entry (k, r) of the transpose of an [a, b] vector is its entry (r, k). -/
theorem transpose_swap_apply (x : (⟨2, ![a, b]⟩ : Shape).Idx → α) (h : (⟨2, ![a, b]⟩ : Shape).Transposes [1, 0] ⟨2, ![b, a]⟩)
    (k : Fin b) (r : Fin a) : transpose ⟨2, ![b, a]⟩ [1, 0] x h (ix2 k r) = x (ix2 r k) :=
  transpose_apply [1, 0] x h (ix2 k r) (ix2 r k) (fun c => match c with
    | ⟨0, _⟩ => rfl
    | ⟨1, _⟩ => rfl)

/-- Entry (r, 0) of a row [1, n] reshaped to a column [n, 1] is the row's entry (0, r). -/
theorem shapeCast_row_to_col_apply (x : (⟨2, ![1, n]⟩ : Shape).Idx → α) (h : (⟨2, ![1, n]⟩ : Shape).ShapeCasts ⟨2, ![n, 1]⟩)
    (r : Fin n) : shapeCast ⟨2, ![n, 1]⟩ x h (ix2 r (0 : Fin 1)) = x (ix2 (0 : Fin 1) r) :=
  shapeCast_apply x h (ix2 r (0 : Fin 1)) (ix2 (0 : Fin 1) r) (by
    rw [Shape.rowMajor_val_two, Shape.rowMajor_val_two]
    show 0 * n + r.val = r.val * 1 + 0
    omega)

/-- Entry (0, r) of a column [n, 1] reshaped to a row [1, n] is the column's entry (r, 0). -/
theorem shapeCast_col_to_row_apply (x : (⟨2, ![n, 1]⟩ : Shape).Idx → α) (h : (⟨2, ![n, 1]⟩ : Shape).ShapeCasts ⟨2, ![1, n]⟩)
    (r : Fin n) : shapeCast ⟨2, ![1, n]⟩ x h (ix2 (0 : Fin 1) r) = x (ix2 r (0 : Fin 1)) :=
  shapeCast_apply x h (ix2 (0 : Fin 1) r) (ix2 r (0 : Fin 1)) (by
    rw [Shape.rowMajor_val_two, Shape.rowMajor_val_two]
    show r.val * 1 + 0 = 0 * n + r.val
    omega)

end Cert.LibSwapAxes

end
-- ==== Proof.HostArrays.lean ====
/-
  What the arrays written before the kernel's region hold, entry by entry.

  Before the region is entered, six weight matrices are copied to a narrower float format, the bias vectors and the
  weight columns are re-laid as rows, and the biases that are added together are summed. Over the extended reals a
  change of float format is the identity, a re-laying keeps the row-major order of the entries, and a sum of arrays
  is the sum entry by entry; so each array written holds the entries, or the sums of entries, of the program's
  arguments.
-/
import proofs.«150214_j2525440770621_2_alg».proof.Proof.Gen.KernelIdeal.Frame
import proofs.«150214_j2525440770621_2_alg».proof.Proof.LibRowOps
import proofs.«150214_j2525440770621_2_alg».proof.Proof.LibSwapAxes
import Idealize.ShloMosaic.Lib.StableHlo.Run
import Idealize.ShloMosaic.Lib.Pipeline.Value
import Idealize.ShloMosaic.Lib.ValueIdx

noncomputable section

namespace Cert.GatedCell.Kernel

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-! ## The narrowed copies of the weight matrices

  A change of float format is the identity on the extended reals: the copy holds the matrix's entries. -/

/-- The narrowed copy of the relations holds its entries. -/
theorem host_v5 (r j : Fin 512) : V m c main_v5 (ix2 r j) = m ((c : Thread nD τ).loc main_arg1) (ix2 r j) := by
  dsimp only [V, hostOps0]; after_results_simp
  rfl

/-- The narrowed copy of `Wx` holds its entries. -/
theorem host_v0 (k : Fin 1024) (j : Fin 512) : V m c main_v0 (ix2 k j) = m ((c : Thread nD τ).loc main_arg4) (ix2 k j) := by
  dsimp only [V, hostOps0]; after_results_simp
  rfl

/-- The narrowed copy of `Wzc` holds its entries. -/
theorem host_v1 (k j : Fin 512) : V m c main_v1 (ix2 k j) = m ((c : Thread nD τ).loc main_arg10) (ix2 k j) := by
  dsimp only [V, hostOps0]; after_results_simp
  rfl

/-- The narrowed copy of `Whc` holds its entries. -/
theorem host_v2 (k j : Fin 512) : V m c main_v2 (ix2 k j) = m ((c : Thread nD τ).loc main_arg12) (ix2 k j) := by
  dsimp only [V, hostOps0]; after_results_simp
  rfl

/-- The narrowed copy of `Wha` holds its entries. -/
theorem host_v3 (k j : Fin 512) : V m c main_v3 (ix2 k j) = m ((c : Thread nD τ).loc main_arg20) (ix2 k j) := by
  dsimp only [V, hostOps0]; after_results_simp
  rfl

/-- The narrowed copy of `Wxa` holds its entries. -/
theorem host_v4 (k j : Fin 512) : V m c main_v4 (ix2 k j) = m ((c : Thread nD τ).loc main_arg22) (ix2 k j) := by
  dsimp only [V, hostOps0]; after_results_simp
  rfl

/-! ## The vectors and columns re-laid as rows

  A re-laying keeps the row-major order: entry `(0, k)` of the row is entry `k` of the vector, entry `(k, 0)` of the
  column. -/

/-- The row of `bx` holds the entries of `bx`. -/
theorem host_v6 (j : Fin 512) : V m c main_v6 (ix2 (0 : Fin 1) j) = m ((c : Thread nD τ).loc main_arg5) (ix1 j) := by
  dsimp only [V, hostOps0]; after_results_simp
  exact Cert.KernelBody.shapeCast_row_apply _ _ j

/-- The row of `whi` holds the entries of the column `whi`. -/
theorem host_v7 (k : Fin 512) : V m c main_v7 (ix2 (0 : Fin 1) k) = m ((c : Thread nD τ).loc main_arg6) (ix2 k (0 : Fin 1)) := by
  dsimp only [V, hostOps0]; after_results_simp
  exact Cert.LibSwapAxes.shapeCast_col_to_row_apply _ _ k

/-- The row of `wci` holds the entries of the column `wci`. -/
theorem host_v8 (k : Fin 512) : V m c main_v8 (ix2 (0 : Fin 1) k) = m ((c : Thread nD τ).loc main_arg8) (ix2 k (0 : Fin 1)) := by
  dsimp only [V, hostOps0]; after_results_simp
  exact Cert.LibSwapAxes.shapeCast_col_to_row_apply _ _ k

/-- The row of `wzo` holds the entries of the column `wzo`. -/
theorem host_v9 (k : Fin 512) : V m c main_v9 (ix2 (0 : Fin 1) k) = m ((c : Thread nD τ).loc main_arg14) (ix2 k (0 : Fin 1)) := by
  dsimp only [V, hostOps0]; after_results_simp
  exact Cert.LibSwapAxes.shapeCast_col_to_row_apply _ _ k

/-- The row of `who` holds the entries of the column `who`. -/
theorem host_v10 (k : Fin 512) : V m c main_v10 (ix2 (0 : Fin 1) k) = m ((c : Thread nD τ).loc main_arg16) (ix2 k (0 : Fin 1)) := by
  dsimp only [V, hostOps0]; after_results_simp
  exact Cert.LibSwapAxes.shapeCast_col_to_row_apply _ _ k

/-- The row of `wco` holds the entries of the column `wco`. -/
theorem host_v11 (k : Fin 512) : V m c main_v11 (ix2 (0 : Fin 1) k) = m ((c : Thread nD τ).loc main_arg18) (ix2 k (0 : Fin 1)) := by
  dsimp only [V, hostOps0]; after_results_simp
  exact Cert.LibSwapAxes.shapeCast_col_to_row_apply _ _ k

/-! ## The summed biases

  The biases that the cell adds together are summed entry by entry, then re-laid as a row. The sums are written
  with the addition of the extended reals named, the entries' type being the extended reals only after unfolding. -/

/-- The input gate's bias `bi` is the sum of its two biases. -/
theorem host_v13 : V m c main_v13 (ix2 (0 : Fin 1) (0 : Fin 1))
    = HAdd.hAdd (α := EReal) (β := EReal) (γ := EReal) (m ((c : Thread nD τ).loc main_arg7) (ix1 (0 : Fin 1))) (m ((c : Thread nD τ).loc main_arg9) (ix1 (0 : Fin 1))) := by
  dsimp only [V, hostOps0]; after_results_simp
  exact Cert.KernelBody.shapeCast_row_apply _ _ (0 : Fin 1)

/-- The output gate's bias `bo` is the sum of its three biases. -/
theorem host_v16 : V m c main_v16 (ix2 (0 : Fin 1) (0 : Fin 1))
    = HAdd.hAdd (α := EReal) (β := EReal) (γ := EReal) (
        HAdd.hAdd (α := EReal) (β := EReal) (γ := EReal) (m ((c : Thread nD τ).loc main_arg15) (ix1 (0 : Fin 1))) (m ((c : Thread nD τ).loc main_arg17) (ix1 (0 : Fin 1)))) (
        m ((c : Thread nD τ).loc main_arg19) (ix1 (0 : Fin 1))) := by
  dsimp only [V, hostOps0]; after_results_simp
  exact Cert.KernelBody.shapeCast_row_apply _ _ (0 : Fin 1)

/-- The cell's bias `bc` is the sum of its two biases, entry by entry. -/
theorem host_v18 (j : Fin 512) : V m c main_v18 (ix2 (0 : Fin 1) j)
    = HAdd.hAdd (α := EReal) (β := EReal) (γ := EReal) (m ((c : Thread nD τ).loc main_arg11) (ix1 j)) (m ((c : Thread nD τ).loc main_arg13) (ix1 j)) := by
  dsimp only [V, hostOps0]; after_results_simp
  exact Cert.KernelBody.shapeCast_row_apply _ _ j

/-- The attention's bias `ba` is the sum of its two biases, entry by entry. -/
theorem host_v20 (r : Fin 512) : V m c main_v20 (ix2 (0 : Fin 1) r)
    = HAdd.hAdd (α := EReal) (β := EReal) (γ := EReal) (m ((c : Thread nD τ).loc main_arg21) (ix1 r)) (m ((c : Thread nD τ).loc main_arg23) (ix1 r)) := by
  dsimp only [V, hostOps0]; after_results_simp
  exact Cert.KernelBody.shapeCast_row_apply _ _ r

end Cert.GatedCell.Kernel

end
-- ==== Proof.KernelWeights.lean ====
/-
  The weights the body finds in its blocks are the program's weight arguments.

  Every weight window stages its whole array at every grid point, so a weight block read at an index is that array
  read at the same index; and each of those arrays was written by the host from the arguments before the region:
  a bf16 copy holds the argument's entries, a vector or a column re-laid as a row holds them in order, and the
  biases that are added together were summed first. Hence the weights read off the sixteen blocks at any point are
  the weights read off the arguments.
-/
import proofs.«150214_j2525440770621_2_alg».proof.Proof.KernelIndex
import proofs.«150214_j2525440770621_2_alg».proof.Proof.KernelPay
import proofs.«150214_j2525440770621_2_alg».proof.Proof.HostArrays

noncomputable section

namespace Cert.GatedCell.Kernel

open Idealize.ShloMosaic Idealize.ShloMosaic.TcCoe Idealize.ShloMosaic.ValueIdx Idealize.SL.Sem
open Cert.KernelIdeal Cert.KernelIdeal.Gen Cert.GatedCell

/-! ## A weight block's index is the array's index -/

theorem embW1 (t : Fin cfg0.N) (a : Fin 512) (b : Fin 512) :
    ((cfg0.win 1).blk t).view.emb (ix2 a b) = ix2 a b := by
  obtain ⟨e0, e1, -⟩ := weight_index t
  funext x; apply Fin.ext
  match x with
  | ⟨0, _⟩ => show win0_1.index t (0 : Fin 2) * 512 + 1 * a.val = a.val; rw [e0]; omega
  | ⟨1, _⟩ => show win0_1.index t (1 : Fin 2) * 512 + 1 * b.val = b.val; rw [e1]; omega

theorem embW4 (t : Fin cfg0.N) (a : Fin 1024) (b : Fin 512) :
    ((cfg0.win 4).blk t).view.emb (ix2 a b) = ix2 a b := by
  obtain ⟨-, -, e0, e1, -⟩ := weight_index t
  funext x; apply Fin.ext
  match x with
  | ⟨0, _⟩ => show win0_4.index t (0 : Fin 2) * 1024 + 1 * a.val = a.val; rw [e0]; omega
  | ⟨1, _⟩ => show win0_4.index t (1 : Fin 2) * 512 + 1 * b.val = b.val; rw [e1]; omega

theorem embW5 (t : Fin cfg0.N) (a : Fin 1) (b : Fin 512) :
    ((cfg0.win 5).blk t).view.emb (ix2 a b) = ix2 a b := by
  obtain ⟨-, -, -, -, e0, e1, -⟩ := weight_index t
  funext x; apply Fin.ext
  match x with
  | ⟨0, _⟩ => show win0_5.index t (0 : Fin 2) * 1 + 1 * a.val = a.val; rw [e0]; omega
  | ⟨1, _⟩ => show win0_5.index t (1 : Fin 2) * 512 + 1 * b.val = b.val; rw [e1]; omega

theorem embW6 (t : Fin cfg0.N) (a : Fin 1) (b : Fin 512) :
    ((cfg0.win 6).blk t).view.emb (ix2 a b) = ix2 a b := by
  obtain ⟨-, -, -, -, -, -, e0, e1, -⟩ := weight_index t
  funext x; apply Fin.ext
  match x with
  | ⟨0, _⟩ => show win0_6.index t (0 : Fin 2) * 1 + 1 * a.val = a.val; rw [e0]; omega
  | ⟨1, _⟩ => show win0_6.index t (1 : Fin 2) * 512 + 1 * b.val = b.val; rw [e1]; omega

theorem embW7 (t : Fin cfg0.N) (a : Fin 1) (b : Fin 512) :
    ((cfg0.win 7).blk t).view.emb (ix2 a b) = ix2 a b := by
  obtain ⟨-, -, -, -, -, -, -, -, e0, e1, -⟩ := weight_index t
  funext x; apply Fin.ext
  match x with
  | ⟨0, _⟩ => show win0_7.index t (0 : Fin 2) * 1 + 1 * a.val = a.val; rw [e0]; omega
  | ⟨1, _⟩ => show win0_7.index t (1 : Fin 2) * 512 + 1 * b.val = b.val; rw [e1]; omega

theorem embW8 (t : Fin cfg0.N) (a : Fin 1) (b : Fin 1) :
    ((cfg0.win 8).blk t).view.emb (ix2 a b) = ix2 a b := by
  obtain ⟨-, -, -, -, -, -, -, -, -, -, e0, e1, -⟩ := weight_index t
  funext x; apply Fin.ext
  match x with
  | ⟨0, _⟩ => show win0_8.index t (0 : Fin 2) * 1 + 1 * a.val = a.val; rw [e0]; omega
  | ⟨1, _⟩ => show win0_8.index t (1 : Fin 2) * 1 + 1 * b.val = b.val; rw [e1]; omega

theorem embW9 (t : Fin cfg0.N) (a : Fin 512) (b : Fin 512) :
    ((cfg0.win 9).blk t).view.emb (ix2 a b) = ix2 a b := by
  obtain ⟨-, -, -, -, -, -, -, -, -, -, -, -, e0, e1, -⟩ := weight_index t
  funext x; apply Fin.ext
  match x with
  | ⟨0, _⟩ => show win0_9.index t (0 : Fin 2) * 512 + 1 * a.val = a.val; rw [e0]; omega
  | ⟨1, _⟩ => show win0_9.index t (1 : Fin 2) * 512 + 1 * b.val = b.val; rw [e1]; omega

theorem embW10 (t : Fin cfg0.N) (a : Fin 512) (b : Fin 512) :
    ((cfg0.win 10).blk t).view.emb (ix2 a b) = ix2 a b := by
  obtain ⟨-, -, -, -, -, -, -, -, -, -, -, -, -, -, e0, e1, -⟩ := weight_index t
  funext x; apply Fin.ext
  match x with
  | ⟨0, _⟩ => show win0_10.index t (0 : Fin 2) * 512 + 1 * a.val = a.val; rw [e0]; omega
  | ⟨1, _⟩ => show win0_10.index t (1 : Fin 2) * 512 + 1 * b.val = b.val; rw [e1]; omega

theorem embW11 (t : Fin cfg0.N) (a : Fin 1) (b : Fin 512) :
    ((cfg0.win 11).blk t).view.emb (ix2 a b) = ix2 a b := by
  obtain ⟨-, -, -, -, -, -, -, -, -, -, -, -, -, -, -, -, e0, e1, -⟩ := weight_index t
  funext x; apply Fin.ext
  match x with
  | ⟨0, _⟩ => show win0_11.index t (0 : Fin 2) * 1 + 1 * a.val = a.val; rw [e0]; omega
  | ⟨1, _⟩ => show win0_11.index t (1 : Fin 2) * 512 + 1 * b.val = b.val; rw [e1]; omega

theorem embW12 (t : Fin cfg0.N) (a : Fin 1) (b : Fin 512) :
    ((cfg0.win 12).blk t).view.emb (ix2 a b) = ix2 a b := by
  obtain ⟨-, -, -, -, -, -, -, -, -, -, -, -, -, -, -, -, -, -, e0, e1, -⟩ := weight_index t
  funext x; apply Fin.ext
  match x with
  | ⟨0, _⟩ => show win0_12.index t (0 : Fin 2) * 1 + 1 * a.val = a.val; rw [e0]; omega
  | ⟨1, _⟩ => show win0_12.index t (1 : Fin 2) * 512 + 1 * b.val = b.val; rw [e1]; omega

theorem embW13 (t : Fin cfg0.N) (a : Fin 1) (b : Fin 512) :
    ((cfg0.win 13).blk t).view.emb (ix2 a b) = ix2 a b := by
  obtain ⟨-, -, -, -, -, -, -, -, -, -, -, -, -, -, -, -, -, -, -, -, e0, e1, -⟩ := weight_index t
  funext x; apply Fin.ext
  match x with
  | ⟨0, _⟩ => show win0_13.index t (0 : Fin 2) * 1 + 1 * a.val = a.val; rw [e0]; omega
  | ⟨1, _⟩ => show win0_13.index t (1 : Fin 2) * 512 + 1 * b.val = b.val; rw [e1]; omega

theorem embW14 (t : Fin cfg0.N) (a : Fin 1) (b : Fin 512) :
    ((cfg0.win 14).blk t).view.emb (ix2 a b) = ix2 a b := by
  obtain ⟨-, -, -, -, -, -, -, -, -, -, -, -, -, -, -, -, -, -, -, -, -, -, e0, e1, -⟩ := weight_index t
  funext x; apply Fin.ext
  match x with
  | ⟨0, _⟩ => show win0_14.index t (0 : Fin 2) * 1 + 1 * a.val = a.val; rw [e0]; omega
  | ⟨1, _⟩ => show win0_14.index t (1 : Fin 2) * 512 + 1 * b.val = b.val; rw [e1]; omega

theorem embW15 (t : Fin cfg0.N) (a : Fin 1) (b : Fin 1) :
    ((cfg0.win 15).blk t).view.emb (ix2 a b) = ix2 a b := by
  obtain ⟨-, -, -, -, -, -, -, -, -, -, -, -, -, -, -, -, -, -, -, -, -, -, -, -, e0, e1, -⟩ := weight_index t
  funext x; apply Fin.ext
  match x with
  | ⟨0, _⟩ => show win0_15.index t (0 : Fin 2) * 1 + 1 * a.val = a.val; rw [e0]; omega
  | ⟨1, _⟩ => show win0_15.index t (1 : Fin 2) * 1 + 1 * b.val = b.val; rw [e1]; omega

theorem embW16 (t : Fin cfg0.N) (a : Fin 512) (b : Fin 512) :
    ((cfg0.win 16).blk t).view.emb (ix2 a b) = ix2 a b := by
  obtain ⟨-, -, -, -, -, -, -, -, -, -, -, -, -, -, -, -, -, -, -, -, -, -, -, -, -, -, e0, e1, -⟩ := weight_index t
  funext x; apply Fin.ext
  match x with
  | ⟨0, _⟩ => show win0_16.index t (0 : Fin 2) * 512 + 1 * a.val = a.val; rw [e0]; omega
  | ⟨1, _⟩ => show win0_16.index t (1 : Fin 2) * 512 + 1 * b.val = b.val; rw [e1]; omega

theorem embW17 (t : Fin cfg0.N) (a : Fin 512) (b : Fin 512) :
    ((cfg0.win 17).blk t).view.emb (ix2 a b) = ix2 a b := by
  obtain ⟨-, -, -, -, -, -, -, -, -, -, -, -, -, -, -, -, -, -, -, -, -, -, -, -, -, -, -, -, e0, e1, -⟩ := weight_index t
  funext x; apply Fin.ext
  match x with
  | ⟨0, _⟩ => show win0_17.index t (0 : Fin 2) * 512 + 1 * a.val = a.val; rw [e0]; omega
  | ⟨1, _⟩ => show win0_17.index t (1 : Fin 2) * 512 + 1 * b.val = b.val; rw [e1]; omega

theorem embW18 (t : Fin cfg0.N) (a : Fin 1) (b : Fin 512) :
    ((cfg0.win 18).blk t).view.emb (ix2 a b) = ix2 a b := by
  obtain ⟨-, -, -, -, -, -, -, -, -, -, -, -, -, -, -, -, -, -, -, -, -, -, -, -, -, -, -, -, -, -, e0, e1⟩ := weight_index t
  funext x; apply Fin.ext
  match x with
  | ⟨0, _⟩ => show win0_18.index t (0 : Fin 2) * 1 + 1 * a.val = a.val; rw [e0]; omega
  | ⟨1, _⟩ => show win0_18.index t (1 : Fin 2) * 512 + 1 * b.val = b.val; rw [e1]; omega

/-! ## The weight blocks, read -/

section blocks

variable (m : (ℓ : Loc nD τ sig) → Buf (Elt Ideal) ℓ) (c : Dev nD)

/-- The weights read off the program's argument arrays on core `c`. -/
def argW : Weights :=
  argWeights (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21)) (m ((c : Thread nD τ).loc main_arg22)) (m ((c : Thread nD τ).loc main_arg23))

theorem iblk1_apply (t : Fin cfg0.N) (k : Fin 512) (j : Fin 512) :
    iblk m c 1 t (ix2 k j) = m ((c : Thread nD τ).loc main_arg1) (ix2 k j) := by
  show V m c main_v5 (((cfg0.win 1).blk t).view.emb (ix2 k j)) = _
  rw [embW1]; exact host_v5 m c k j

theorem iblk4_apply (t : Fin cfg0.N) (k : Fin 1024) (j : Fin 512) :
    iblk m c 4 t (ix2 k j) = m ((c : Thread nD τ).loc main_arg4) (ix2 k j) := by
  show V m c main_v0 (((cfg0.win 4).blk t).view.emb (ix2 k j)) = _
  rw [embW4]; exact host_v0 m c k j

theorem iblk5_apply (t : Fin cfg0.N) (j : Fin 512) :
    iblk m c 5 t (ix2 (0 : Fin 1) j) = m ((c : Thread nD τ).loc main_arg5) (ix1 j) := by
  show V m c main_v6 (((cfg0.win 5).blk t).view.emb (ix2 (0 : Fin 1) j)) = _
  rw [embW5]; exact host_v6 m c j

theorem iblk6_apply (t : Fin cfg0.N) (k : Fin 512) :
    iblk m c 6 t (ix2 (0 : Fin 1) k) = m ((c : Thread nD τ).loc main_arg6) (ix2 k (0 : Fin 1)) := by
  show V m c main_v7 (((cfg0.win 6).blk t).view.emb (ix2 (0 : Fin 1) k)) = _
  rw [embW6]; exact host_v7 m c k

theorem iblk7_apply (t : Fin cfg0.N) (k : Fin 512) :
    iblk m c 7 t (ix2 (0 : Fin 1) k) = m ((c : Thread nD τ).loc main_arg8) (ix2 k (0 : Fin 1)) := by
  show V m c main_v8 (((cfg0.win 7).blk t).view.emb (ix2 (0 : Fin 1) k)) = _
  rw [embW7]; exact host_v8 m c k

theorem iblk8_apply (t : Fin cfg0.N)  :
    iblk m c 8 t (ix2 (0 : Fin 1) (0 : Fin 1)) = (argW m c).bi := by
  show V m c main_v13 (((cfg0.win 8).blk t).view.emb (ix2 (0 : Fin 1) (0 : Fin 1))) = _
  rw [embW8]; exact host_v13 m c

theorem iblk9_apply (t : Fin cfg0.N) (k : Fin 512) (j : Fin 512) :
    iblk m c 9 t (ix2 k j) = m ((c : Thread nD τ).loc main_arg10) (ix2 k j) := by
  show V m c main_v1 (((cfg0.win 9).blk t).view.emb (ix2 k j)) = _
  rw [embW9]; exact host_v1 m c k j

theorem iblk10_apply (t : Fin cfg0.N) (k : Fin 512) (j : Fin 512) :
    iblk m c 10 t (ix2 k j) = m ((c : Thread nD τ).loc main_arg12) (ix2 k j) := by
  show V m c main_v2 (((cfg0.win 10).blk t).view.emb (ix2 k j)) = _
  rw [embW10]; exact host_v2 m c k j

theorem iblk11_apply (t : Fin cfg0.N) (j : Fin 512) :
    iblk m c 11 t (ix2 (0 : Fin 1) j) = (argW m c).bc j := by
  show V m c main_v18 (((cfg0.win 11).blk t).view.emb (ix2 (0 : Fin 1) j)) = _
  rw [embW11]; exact host_v18 m c j

theorem iblk12_apply (t : Fin cfg0.N) (k : Fin 512) :
    iblk m c 12 t (ix2 (0 : Fin 1) k) = m ((c : Thread nD τ).loc main_arg14) (ix2 k (0 : Fin 1)) := by
  show V m c main_v9 (((cfg0.win 12).blk t).view.emb (ix2 (0 : Fin 1) k)) = _
  rw [embW12]; exact host_v9 m c k

theorem iblk13_apply (t : Fin cfg0.N) (k : Fin 512) :
    iblk m c 13 t (ix2 (0 : Fin 1) k) = m ((c : Thread nD τ).loc main_arg16) (ix2 k (0 : Fin 1)) := by
  show V m c main_v10 (((cfg0.win 13).blk t).view.emb (ix2 (0 : Fin 1) k)) = _
  rw [embW13]; exact host_v10 m c k

theorem iblk14_apply (t : Fin cfg0.N) (k : Fin 512) :
    iblk m c 14 t (ix2 (0 : Fin 1) k) = m ((c : Thread nD τ).loc main_arg18) (ix2 k (0 : Fin 1)) := by
  show V m c main_v11 (((cfg0.win 14).blk t).view.emb (ix2 (0 : Fin 1) k)) = _
  rw [embW14]; exact host_v11 m c k

theorem iblk15_apply (t : Fin cfg0.N)  :
    iblk m c 15 t (ix2 (0 : Fin 1) (0 : Fin 1)) = (argW m c).bo := by
  show V m c main_v16 (((cfg0.win 15).blk t).view.emb (ix2 (0 : Fin 1) (0 : Fin 1))) = _
  rw [embW15]; exact host_v16 m c

theorem iblk16_apply (t : Fin cfg0.N) (k : Fin 512) (j : Fin 512) :
    iblk m c 16 t (ix2 k j) = m ((c : Thread nD τ).loc main_arg20) (ix2 k j) := by
  show V m c main_v3 (((cfg0.win 16).blk t).view.emb (ix2 k j)) = _
  rw [embW16]; exact host_v3 m c k j

theorem iblk17_apply (t : Fin cfg0.N) (k : Fin 512) (j : Fin 512) :
    iblk m c 17 t (ix2 k j) = m ((c : Thread nD τ).loc main_arg22) (ix2 k j) := by
  show V m c main_v4 (((cfg0.win 17).blk t).view.emb (ix2 k j)) = _
  rw [embW17]; exact host_v4 m c k j

theorem iblk18_apply (t : Fin cfg0.N) (j : Fin 512) :
    iblk m c 18 t (ix2 (0 : Fin 1) j) = (argW m c).ba j := by
  show V m c main_v20 (((cfg0.win 18).blk t).view.emb (ix2 (0 : Fin 1) j)) = _
  rw [embW18]; exact host_v20 m c j

/-- At every grid point the weights in the blocks are the arguments' weights. -/
theorem blockWeights_eq (t : Fin cfg0.N) :
    blockWeights (iblk m c 1 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t)
      (iblk m c 15 t) (iblk m c 16 t) (iblk m c 17 t) (iblk m c 18 t) = argW m c := by
  unfold blockWeights argW argWeights
  congr 1
  · funext k j; exact iblk4_apply m c t k j
  · funext j; exact iblk5_apply m c t j
  · funext k r; exact iblk16_apply m c t k r
  · funext k r; exact iblk17_apply m c t k r
  · funext r; exact iblk18_apply m c t r
  · funext r j; exact iblk1_apply m c t r j
  · funext k; exact iblk6_apply m c t k
  · funext k; exact iblk7_apply m c t k
  · exact iblk8_apply m c t
  · funext k j; exact iblk9_apply m c t k j
  · funext k j; exact iblk10_apply m c t k j
  · funext j; exact iblk11_apply m c t j
  · funext k; exact iblk12_apply m c t k
  · funext k; exact iblk13_apply m c t k
  · funext k; exact iblk14_apply m c t k
  · exact iblk15_apply m c t

end blocks

end Cert.GatedCell.Kernel

end
-- ==== Proof.KernelBlocks.lean ====
/-
  The three result arrays after the kernel's run.

  At grid point `t` the body stores three whole blocks. Row `p` of each stored block is the gated cell of the
  specification applied to row `p` of the x_bar, h and c blocks with the weights found in the weight blocks; row `p`
  of those blocks is row `512·t + p` of the arrays, and the weights are the arguments' weights at every point. So
  what point `t` writes back is block `t` of ONE function of the arguments — the specification's result for the whole
  batch — and since the 64 blocks tile the result array, the array ends holding that function.
-/
import proofs.«150214_j2525440770621_2_alg».proof.Proof.KernelWeights

noncomputable section

namespace Cert.GatedCell.Kernel

open Idealize.ShloMosaic Idealize.ShloMosaic.TcCoe Idealize.ShloMosaic.ValueIdx Idealize.SL.Sem
open Cert.KernelIdeal Cert.KernelIdeal.Gen Cert.GatedCell
open Idealize.ShloMosaic.Pipeline (Dat)

variable (m : (ℓ : Loc nD τ sig) → Buf (Elt Ideal) ℓ) (ρ : Dev nD → PrngReg) (c : Dev nD)

/-! ## Row `p` of a batch block is row `512·t + p` of its array -/

theorem row_xbar (t : Fin cfg0.N) (p : Fin 512) :
    rowOf (B := 512) (n := 1024) (iblk m c 0 t) p = rowOf (m ((c : Thread nD τ).loc main_arg0)) (rowAt t p) :=
  funext fun k => iblk0_apply m c t p k

theorem row_h (t : Fin cfg0.N) (p : Fin 512) :
    rowOf (B := 512) (n := 512) (iblk m c 2 t) p = rowOf (m ((c : Thread nD τ).loc main_arg2)) (rowAt t p) :=
  funext fun k => iblk2_apply m c t p k

theorem row_c (t : Fin cfg0.N) (p : Fin 512) :
    rowOf (B := 512) (n := 512) (iblk m c 3 t) p = rowOf (m ((c : Thread nD τ).loc main_arg3)) (rowAt t p) :=
  funext fun k => iblk3_apply m c t p k

/-! ## What each point writes back -/

/-- Point `t` writes back block `t` of the whole batch's relation combination. -/
theorem flushed_r (t : Fin cfg0.N) :
    (dats m 0 c).flushed 21 t = ((cfg0.win 21).blk t).view.read (Elt Ideal)
      (wholeR (argW m c) (m ((c : Thread nD τ).loc main_arg0)) (m ((c : Thread nD τ).loc main_arg2))) := by
  rw [Cert.KernelIdeal.ValueP.flushed21]
  unfold out0_21
  rw [View.canon_unit_zero zero_offsets]
  simp only [View.ld_unit_zero (S := S512x1024) zero_offsets,
    View.ld_unit_zero (S := S512x512) zero_offsets,
    View.ld_unit_zero (S := S1024x512) zero_offsets,
    View.ld_unit_zero (S := S1x512) zero_offsets,
    View.ld_unit_zero (S := S1x1) zero_offsets]
  funext j
  obtain ⟨p, q, rfl⟩ : ∃ (p : Fin 512) (q : Fin 512), j = ix2 p q := ⟨j 0, j 1, eq_ix2 j⟩
  show k0_pay2 (iblk m c 0 t) (iblk m c 2 t) (iblk m c 4 t) (iblk m c 5 t) (iblk m c 16 t) (iblk m c 17 t) (iblk m c 18 t) (iblk m c 1 t) (ix2 p q)
      = wholeR (argW m c) (m ((c : Thread nD τ).loc main_arg0)) (m ((c : Thread nD τ).loc main_arg2)) (((cfg0.win 21).blk t).view.emb (ix2 p q))
  refine (block_r (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [blockWeights_eq m c t, emb21 t p q, row_xbar m c t p, row_h m c t p]
  rfl

/-- Point `t` writes back block `t` of the whole batch's new cell state. -/
theorem flushed_c (t : Fin cfg0.N) :
    (dats m 0 c).flushed 20 t = ((cfg0.win 20).blk t).view.read (Elt Ideal)
      (wholeC (argW m c) (m ((c : Thread nD τ).loc main_arg0)) (m ((c : Thread nD τ).loc main_arg2)) (m ((c : Thread nD τ).loc main_arg3))) := by
  rw [Cert.KernelIdeal.ValueP.flushed20]
  unfold out0_20
  rw [View.canon_unit_zero zero_offsets]
  simp only [View.ld_unit_zero (S := S512x1024) zero_offsets,
    View.ld_unit_zero (S := S512x512) zero_offsets,
    View.ld_unit_zero (S := S1024x512) zero_offsets,
    View.ld_unit_zero (S := S1x512) zero_offsets,
    View.ld_unit_zero (S := S1x1) zero_offsets]
  funext j
  obtain ⟨p, q, rfl⟩ : ∃ (p : Fin 512) (q : Fin 512), j = ix2 p q := ⟨j 0, j 1, eq_ix2 j⟩
  show k0_pay5 (iblk m c 2 t) (iblk m c 3 t) (k0_pay3 (iblk m c 0 t) (iblk m c 2 t) (iblk m c 4 t) (iblk m c 5 t) (iblk m c 16 t) (iblk m c 17 t) (iblk m c 18 t) (iblk m c 1 t)) (k0_pay4 (iblk m c 2 t) (iblk m c 6 t)) (iblk m c 7 t) (iblk m c 8 t) (iblk m c 9 t) (iblk m c 10 t) (iblk m c 11 t) (ix2 p q)
      = wholeC (argW m c) (m ((c : Thread nD τ).loc main_arg0)) (m ((c : Thread nD τ).loc main_arg2)) (m ((c : Thread nD τ).loc main_arg3)) (((cfg0.win 20).blk t).view.emb (ix2 p q))
  refine (block_c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [blockWeights_eq m c t, emb20 t p q, row_xbar m c t p, row_h m c t p, row_c m c t p]
  rfl

/-- Point `t` writes back block `t` of the whole batch's new hidden state. -/
theorem flushed_h (t : Fin cfg0.N) :
    (dats m 0 c).flushed 19 t = ((cfg0.win 19).blk t).view.read (Elt Ideal)
      (wholeH (argW m c) (m ((c : Thread nD τ).loc main_arg0)) (m ((c : Thread nD τ).loc main_arg2)) (m ((c : Thread nD τ).loc main_arg3))) := by
  rw [Cert.KernelIdeal.ValueP.flushed19]
  unfold out0_19
  rw [View.canon_unit_zero zero_offsets]
  simp only [View.ld_unit_zero (S := S512x1024) zero_offsets,
    View.ld_unit_zero (S := S512x512) zero_offsets,
    View.ld_unit_zero (S := S1024x512) zero_offsets,
    View.ld_unit_zero (S := S1x512) zero_offsets,
    View.ld_unit_zero (S := S1x1) zero_offsets]
  funext j
  obtain ⟨p, q, rfl⟩ : ∃ (p : Fin 512) (q : Fin 512), j = ix2 p q := ⟨j 0, j 1, eq_ix2 j⟩
  show k0_pay1 (iblk m c 2 t)
        (k0_pay5 (iblk m c 2 t) (iblk m c 3 t) (k0_pay3 (iblk m c 0 t) (iblk m c 2 t) (iblk m c 4 t) (iblk m c 5 t) (iblk m c 16 t) (iblk m c 17 t) (iblk m c 18 t) (iblk m c 1 t)) (k0_pay4 (iblk m c 2 t) (iblk m c 6 t)) (iblk m c 7 t) (iblk m c 8 t) (iblk m c 9 t) (iblk m c 10 t) (iblk m c 11 t))
        (k0_pay6 (k0_pay3 (iblk m c 0 t) (iblk m c 2 t) (iblk m c 4 t) (iblk m c 5 t) (iblk m c 16 t) (iblk m c 17 t) (iblk m c 18 t) (iblk m c 1 t)) (iblk m c 12 t)) (iblk m c 13 t) (iblk m c 14 t) (iblk m c 15 t) (ix2 p q)
      = wholeH (argW m c) (m ((c : Thread nD τ).loc main_arg0)) (m ((c : Thread nD τ).loc main_arg2)) (m ((c : Thread nD τ).loc main_arg3)) (((cfg0.win 19).blk t).view.emb (ix2 p q))
  refine (block_h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans ?_
  rw [blockWeights_eq m c t, emb19 t p q, row_xbar m c t p, row_h m c t p, row_c m c t p]
  rfl

/-! ## The arrays after the run -/

theorem final_r : (dats m 0 c).arrAt 21 cfg0.N = wholeR (argW m c) (m ((c : Thread nD τ).loc main_arg0)) (m ((c : Thread nD τ).loc main_arg2)) :=
  (dats m 0 c).arrAt_eq_of_cover 21 _ (fun t _ => flushed_r m c t) cover21

theorem final_c : (dats m 0 c).arrAt 20 cfg0.N = wholeC (argW m c) (m ((c : Thread nD τ).loc main_arg0)) (m ((c : Thread nD τ).loc main_arg2)) (m ((c : Thread nD τ).loc main_arg3)) :=
  (dats m 0 c).arrAt_eq_of_cover 20 _ (fun t _ => flushed_c m c t) cover20

theorem final_h : (dats m 0 c).arrAt 19 cfg0.N = wholeH (argW m c) (m ((c : Thread nD τ).loc main_arg0)) (m ((c : Thread nD τ).loc main_arg2)) (m ((c : Thread nD τ).loc main_arg3)) :=
  (dats m 0 c).arrAt_eq_of_cover 19 _ (fun t _ => flushed_h m c t) cover19

/-- Every weakly fair execution of the idealized kernel terminates with its three results at the specification's
    whole-batch functions of the arguments, and the arguments unchanged. -/
theorem run : θ_run defs (onTc (τ := τ) (main (F := Ideal))) ⟨m, fun _ => 0, ρ⟩ fun r => ∀ c : Dev nD,
      r.2.mem ((c : Thread nD τ).loc main_v21_0) = wholeH (argW m c) (m ((c : Thread nD τ).loc main_arg0)) (m ((c : Thread nD τ).loc main_arg2)) (m ((c : Thread nD τ).loc main_arg3))
      ∧ r.2.mem ((c : Thread nD τ).loc main_v21_1) = wholeC (argW m c) (m ((c : Thread nD τ).loc main_arg0)) (m ((c : Thread nD τ).loc main_arg2)) (m ((c : Thread nD τ).loc main_arg3))
      ∧ r.2.mem ((c : Thread nD τ).loc main_v21_2) = wholeR (argW m c) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans (final_h m c), (h c).2.1.trans (final_c m c),
      (h c).2.2.1.trans (final_r m c), (h c).2.2.2⟩)
    (Cert.KernelIdeal.ValueP.run_blocks m ρ)

end Cert.GatedCell.Kernel

end
-- ==== Proof.RefValue.lean ====
/-
  The reference program of the gated recurrent cell computes the specification's three results.

  The program is read one operation at a time: each stage's value at the coordinates `(b, j)` of a batch row `b` is
  the corresponding quantity of the specification for that row. A broadcast reads its operand at the coordinates
  it keeps; a product of matrices is the sum over the contracted coordinate; the logistic function arrives as
  `1 / (1 + e^(-x))`; and the biases, which the program adds one after each product, are gathered into the
  specification's pre-summed biases by the associativity and commutativity of addition on the extended reals.
-/
import proofs.«150214_j2525440770621_2_alg».proof.Proof.Gen.ReferenceIdeal.Read
import proofs.«150214_j2525440770621_2_alg».proof.Proof.Spec

noncomputable section

namespace Cert.GatedCell.Ref

open Idealize.ShloMosaic Idealize.ShloMosaic.ValueIdx Cert.ReferenceIdeal Cert.ReferenceIdeal.Read Cert.GatedCell

/-- Two indices with the same coordinates are equal. -/
local macro "coords" : tactic =>
  `(tactic| exact funext fun a => Fin.ext (by match a with | ⟨0, _⟩ => rfl | ⟨1, _⟩ => rfl))

/-- Two rank-one indices with the same coordinate are equal. -/
local macro "coord" : tactic =>
  `(tactic| exact funext fun a => Fin.ext (by match a with | ⟨0, _⟩ => rfl))

/-! ## The number one, broadcast -/

theorem cst_v15 (i : S32768x512.Idx) : val_main_v15 (F := Ideal) i = one := by rw [val_main_v15_apply]; rfl
theorem cst_v17 (i : S32768x512.Idx) : val_main_v17 (F := Ideal) i = one := by rw [val_main_v17_apply]; rfl
theorem cst_v32 (i : S32768x1.Idx) : val_main_v32 (F := Ideal) i = one := by rw [val_main_v32_apply]; rfl
theorem cst_v34 (i : S32768x1.Idx) : val_main_v34 (F := Ideal) i = one := by rw [val_main_v34_apply]; rfl
theorem cst_v36 (i : S32768x1.Idx) : val_main_v36 (F := Ideal) i = one := by rw [val_main_v36_apply]; rfl
theorem cst_v69 (i : S32768x1.Idx) : val_main_v69 (F := Ideal) i = one := by rw [val_main_v69_apply]; rfl
theorem cst_v71 (i : S32768x1.Idx) : val_main_v71 (F := Ideal) i = one := by rw [val_main_v71_apply]; rfl

/-! ## The biases, broadcast along the batch -/

theorem bias_v2 (x : (⟨S512, .f32⟩ : BufTy).Contents (Elt Ideal)) (b : Fin 32768) (j : Fin 512) :
    val_main_v2 (F := Ideal) x (ix2 b j) = x (ix1 j) := by
  rw [val_main_v2_apply, val_main_v1_apply]
  exact congrArg x (by coord)
theorem bias_v6 (x : (⟨S512, .f32⟩ : BufTy).Contents (Elt Ideal)) (b : Fin 32768) (j : Fin 512) :
    val_main_v6 (F := Ideal) x (ix2 b j) = x (ix1 j) := by
  rw [val_main_v6_apply, val_main_v5_apply]
  exact congrArg x (by coord)
theorem bias_v11 (x : (⟨S512, .f32⟩ : BufTy).Contents (Elt Ideal)) (b : Fin 32768) (j : Fin 512) :
    val_main_v11 (F := Ideal) x (ix2 b j) = x (ix1 j) := by
  rw [val_main_v11_apply, val_main_v10_apply]
  exact congrArg x (by coord)
theorem bias_v42 (x : (⟨S512, .f32⟩ : BufTy).Contents (Elt Ideal)) (b : Fin 32768) (j : Fin 512) :
    val_main_v42 (F := Ideal) x (ix2 b j) = x (ix1 j) := by
  rw [val_main_v42_apply, val_main_v41_apply]
  exact congrArg x (by coord)
theorem bias_v47 (x : (⟨S512, .f32⟩ : BufTy).Contents (Elt Ideal)) (b : Fin 32768) (j : Fin 512) :
    val_main_v47 (F := Ideal) x (ix2 b j) = x (ix1 j) := by
  rw [val_main_v47_apply, val_main_v46_apply]
  exact congrArg x (by coord)
theorem bias_v23 (x : (⟨S1, .f32⟩ : BufTy).Contents (Elt Ideal)) (b : Fin 32768) :
    val_main_v23 (F := Ideal) x (ix2 b (0 : Fin 1)) = x (ix1 (0 : Fin 1)) := by
  rw [val_main_v23_apply, val_main_v22_apply]
  exact congrArg x (by coord)
theorem bias_v28 (x : (⟨S1, .f32⟩ : BufTy).Contents (Elt Ideal)) (b : Fin 32768) :
    val_main_v28 (F := Ideal) x (ix2 b (0 : Fin 1)) = x (ix1 (0 : Fin 1)) := by
  rw [val_main_v28_apply, val_main_v27_apply]
  exact congrArg x (by coord)
theorem bias_v55 (x : (⟨S1, .f32⟩ : BufTy).Contents (Elt Ideal)) (b : Fin 32768) :
    val_main_v55 (F := Ideal) x (ix2 b (0 : Fin 1)) = x (ix1 (0 : Fin 1)) := by
  rw [val_main_v55_apply, val_main_v54_apply]
  exact congrArg x (by coord)
theorem bias_v60 (x : (⟨S1, .f32⟩ : BufTy).Contents (Elt Ideal)) (b : Fin 32768) :
    val_main_v60 (F := Ideal) x (ix2 b (0 : Fin 1)) = x (ix1 (0 : Fin 1)) := by
  rw [val_main_v60_apply, val_main_v59_apply]
  exact congrArg x (by coord)
theorem bias_v65 (x : (⟨S1, .f32⟩ : BufTy).Contents (Elt Ideal)) (b : Fin 32768) :
    val_main_v65 (F := Ideal) x (ix2 b (0 : Fin 1)) = x (ix1 (0 : Fin 1)) := by
  rw [val_main_v65_apply, val_main_v64_apply]
  exact congrArg x (by coord)

/-! ## A per-row scalar, broadcast along the row -/

theorem idx_v38 (b : Fin 32768) (j : Fin 512) : idx_main_v38 (ix2 b j) = ix2 b (0 : Fin 1) := by coords
theorem idx_v50 (b : Fin 32768) (j : Fin 512) : idx_main_v50 (ix2 b j) = ix2 b (0 : Fin 1) := by coords
theorem idx_v74 (b : Fin 32768) (j : Fin 512) : idx_main_v74 (ix2 b j) = ix2 b (0 : Fin 1) := by coords

/-! ## The products of the inputs with the weights -/

theorem dot_v0 (x : (⟨S32768x1024, .f32⟩ : BufTy).Contents (Elt Ideal)) (w : (⟨S1024x512, .f32⟩ : BufTy).Contents (Elt Ideal)) (b : Fin 32768) (j : Fin 512) :
    val_main_v0 (F := Ideal) x w (ix2 b j) = ∑ k, x (ix2 b k) * w (ix2 k j) := by
  rw [val_main_v0_apply]
  refine Finset.sum_congr rfl fun k _ => ?_
  rw [show lidx_main_v0 (ix2 b j) k = ix2 b k by coords, show ridx_main_v0 (ix2 b j) k = ix2 k j by coords]
theorem dot_v4 (x : (⟨S32768x512, .f32⟩ : BufTy).Contents (Elt Ideal)) (w : (⟨S512x512, .f32⟩ : BufTy).Contents (Elt Ideal)) (b : Fin 32768) (j : Fin 512) :
    val_main_v4 (F := Ideal) x w (ix2 b j) = ∑ k, x (ix2 b k) * w (ix2 k j) := by
  rw [val_main_v4_apply]
  refine Finset.sum_congr rfl fun k _ => ?_
  rw [show lidx_main_v4 (ix2 b j) k = ix2 b k by coords, show ridx_main_v4 (ix2 b j) k = ix2 k j by coords]
theorem dot_v44 (x : (⟨S32768x512, .f32⟩ : BufTy).Contents (Elt Ideal)) (w : (⟨S512x512, .f32⟩ : BufTy).Contents (Elt Ideal)) (b : Fin 32768) (j : Fin 512) :
    val_main_v44 (F := Ideal) x w (ix2 b j) = ∑ k, x (ix2 b k) * w (ix2 k j) := by
  rw [val_main_v44_apply]
  refine Finset.sum_congr rfl fun k _ => ?_
  rw [show lidx_main_v44 (ix2 b j) k = ix2 b k by coords, show ridx_main_v44 (ix2 b j) k = ix2 k j by coords]
theorem dot_v21 (x : (⟨S32768x512, .f32⟩ : BufTy).Contents (Elt Ideal)) (w : (⟨S512x1, .f32⟩ : BufTy).Contents (Elt Ideal)) (b : Fin 32768) :
    val_main_v21 (F := Ideal) x w (ix2 b (0 : Fin 1)) = ∑ k, x (ix2 b k) * w (ix2 k (0 : Fin 1)) := by
  rw [val_main_v21_apply]
  refine Finset.sum_congr rfl fun k _ => ?_
  rw [show lidx_main_v21 (ix2 b (0 : Fin 1)) k = ix2 b k by coords,
    show ridx_main_v21 (ix2 b (0 : Fin 1)) k = ix2 k (0 : Fin 1) by coords]
theorem dot_v25 (x : (⟨S32768x512, .f32⟩ : BufTy).Contents (Elt Ideal)) (w : (⟨S512x1, .f32⟩ : BufTy).Contents (Elt Ideal)) (b : Fin 32768) :
    val_main_v25 (F := Ideal) x w (ix2 b (0 : Fin 1)) = ∑ k, x (ix2 b k) * w (ix2 k (0 : Fin 1)) := by
  rw [val_main_v25_apply]
  refine Finset.sum_congr rfl fun k _ => ?_
  rw [show lidx_main_v25 (ix2 b (0 : Fin 1)) k = ix2 b k by coords,
    show ridx_main_v25 (ix2 b (0 : Fin 1)) k = ix2 k (0 : Fin 1) by coords]
theorem dot_v57 (x : (⟨S32768x512, .f32⟩ : BufTy).Contents (Elt Ideal)) (w : (⟨S512x1, .f32⟩ : BufTy).Contents (Elt Ideal)) (b : Fin 32768) :
    val_main_v57 (F := Ideal) x w (ix2 b (0 : Fin 1)) = ∑ k, x (ix2 b k) * w (ix2 k (0 : Fin 1)) := by
  rw [val_main_v57_apply]
  refine Finset.sum_congr rfl fun k _ => ?_
  rw [show lidx_main_v57 (ix2 b (0 : Fin 1)) k = ix2 b k by coords,
    show ridx_main_v57 (ix2 b (0 : Fin 1)) k = ix2 k (0 : Fin 1) by coords]

/-! ## The stages of the program are the quantities of the specification

  `W` stands for the weights read off the program's weight arrays. -/

section Stages

variable
  {a0 : (⟨S32768x1024, .f32⟩ : BufTy).Contents (Elt Ideal)}
  {a1 : (⟨S512x512, .f32⟩ : BufTy).Contents (Elt Ideal)}
  {a2 : (⟨S32768x512, .f32⟩ : BufTy).Contents (Elt Ideal)}
  {a3 : (⟨S32768x512, .f32⟩ : BufTy).Contents (Elt Ideal)}
  {a4 : (⟨S1024x512, .f32⟩ : BufTy).Contents (Elt Ideal)}
  {a5 : (⟨S512, .f32⟩ : BufTy).Contents (Elt Ideal)}
  {a6 : (⟨S512x1, .f32⟩ : BufTy).Contents (Elt Ideal)}
  {a7 : (⟨S1, .f32⟩ : BufTy).Contents (Elt Ideal)}
  {a8 : (⟨S512x1, .f32⟩ : BufTy).Contents (Elt Ideal)}
  {a9 : (⟨S1, .f32⟩ : BufTy).Contents (Elt Ideal)}
  {a10 : (⟨S512x512, .f32⟩ : BufTy).Contents (Elt Ideal)}
  {a11 : (⟨S512, .f32⟩ : BufTy).Contents (Elt Ideal)}
  {a12 : (⟨S512x512, .f32⟩ : BufTy).Contents (Elt Ideal)}
  {a13 : (⟨S512, .f32⟩ : BufTy).Contents (Elt Ideal)}
  {a14 : (⟨S512x1, .f32⟩ : BufTy).Contents (Elt Ideal)}
  {a15 : (⟨S1, .f32⟩ : BufTy).Contents (Elt Ideal)}
  {a16 : (⟨S512x1, .f32⟩ : BufTy).Contents (Elt Ideal)}
  {a17 : (⟨S1, .f32⟩ : BufTy).Contents (Elt Ideal)}
  {a18 : (⟨S512x1, .f32⟩ : BufTy).Contents (Elt Ideal)}
  {a19 : (⟨S1, .f32⟩ : BufTy).Contents (Elt Ideal)}
  {a20 : (⟨S512x512, .f32⟩ : BufTy).Contents (Elt Ideal)}
  {a21 : (⟨S512, .f32⟩ : BufTy).Contents (Elt Ideal)}
  {a22 : (⟨S512x512, .f32⟩ : BufTy).Contents (Elt Ideal)}
  {a23 : (⟨S512, .f32⟩ : BufTy).Contents (Elt Ideal)}
  {W : Weights}
  (hW : W = argWeights a1 a4 a5 a6 a7 a8 a9 a10 a11 a12 a13 a14 a15 a16 a17 a18 a19 a20 a21 a22 a23)
include hW

/-- The projected input `x = xr · Wx + bx`. -/
theorem ref_x (b : Fin 32768) (j : Fin 512) :
    val_main_v3 (F := Ideal) a0 a4 a5 (ix2 b j) = xproj W (rowOf a0 b) j := by
  rw [val_main_v3_apply, dot_v0, bias_v2, Ideal.addf_def]
  subst hW; rfl

/-- The product `x · Wxa` of the attention's pre-activation. -/
theorem ref_xa (b : Fin 32768) (r : Fin 512) :
    val_main_v8 (F := Ideal) a0 a4 a5 a22 (ix2 b r) = ∑ k, xproj W (rowOf a0 b) k * a22 (ix2 k r) := by
  rw [val_main_v8_apply]
  refine Finset.sum_congr rfl fun k _ => ?_
  rw [show lidx_main_v8 (ix2 b r) k = ix2 b k by coords, show ridx_main_v8 (ix2 b r) k = ix2 k r by coords,
    ref_x hW]

/-- The attention weights: the two biases, added one after each product, are the specification's `ba`. -/
theorem ref_attn (b : Fin 32768) (r : Fin 512) :
    val_main_v18 (F := Ideal) a0 a2 a4 a5 a20 a21 a22 a23 (ix2 b r) = attn W (rowOf a0 b) (rowOf a2 b) r := by
  rw [val_main_v18_apply, val_main_v16_apply, val_main_v14_apply, val_main_v13_apply, val_main_v12_apply,
    val_main_v9_apply, val_main_v7_apply, cst_v17, cst_v15, dot_v4, bias_v6, ref_xa hW, bias_v11]
  simp only [Ideal.addf_def, Ideal.hostDivf_def, Ideal.hostUnary_exp_def, Ideal.hostNegf_def, Ideal.negf_def]
  rw [add_bias_pair, div_one_add_exp_neg]
  subst hW; rfl

/-- The weighted combination of the relations (the program's third result). -/
theorem ref_rcomb (b : Fin 32768) (j : Fin 512) :
    val_main_v19 (F := Ideal) a0 a1 a2 a4 a5 a20 a21 a22 a23 (ix2 b j) = rcomb W (rowOf a0 b) (rowOf a2 b) j := by
  rw [val_main_v19_apply]
  refine (Finset.sum_congr rfl fun r _ => ?_).trans (?_ : ∑ r, attn W (rowOf a0 b) (rowOf a2 b) r * a1 (ix2 r j) = _)
  · rw [show lidx_main_v19 (ix2 b j) r = ix2 b r by coords, show ridx_main_v19 (ix2 b j) r = ix2 r j by coords,
      ref_attn hW]
  · subst hW; rfl

/-- `z = hr + r`. -/
theorem ref_z (b : Fin 32768) (j : Fin 512) :
    val_main_v20 (F := Ideal) a0 a1 a2 a4 a5 a20 a21 a22 a23 (ix2 b j) = zrow W (rowOf a0 b) (rowOf a2 b) j := by
  rw [val_main_v20_apply, ref_rcomb hW, Ideal.addf_def]
  rfl

/-- The input gate: the two biases, added one after each product, are the specification's `bi`. -/
theorem ref_igate (b : Fin 32768) :
    val_main_v35 (F := Ideal) a2 a3 a6 a7 a8 a9 (ix2 b (0 : Fin 1)) = igate W (rowOf a2 b) (rowOf a3 b) := by
  rw [val_main_v35_apply, val_main_v33_apply, val_main_v31_apply, val_main_v30_apply, val_main_v29_apply,
    val_main_v26_apply, val_main_v24_apply, cst_v34, cst_v32, dot_v21, bias_v23, dot_v25, bias_v28]
  simp only [Ideal.addf_def, Ideal.hostDivf_def, Ideal.hostUnary_exp_def, Ideal.hostNegf_def, Ideal.negf_def]
  rw [add_bias_pair, div_one_add_exp_neg]
  subst hW; rfl

/-- The product `z · Wzc` of the cell's pre-activation. -/
theorem ref_zc (b : Fin 32768) (j : Fin 512) :
    val_main_v40 (F := Ideal) a0 a1 a2 a4 a5 a10 a20 a21 a22 a23 (ix2 b j)
      = ∑ k, zrow W (rowOf a0 b) (rowOf a2 b) k * a10 (ix2 k j) := by
  rw [val_main_v40_apply]
  refine Finset.sum_congr rfl fun k _ => ?_
  rw [show lidx_main_v40 (ix2 b j) k = ix2 b k by coords, show ridx_main_v40 (ix2 b j) k = ix2 k j by coords,
    ref_z hW]

/-- The new cell state (the program's second result): the two biases of the pre-activation are the
    specification's `bc`. -/
theorem ref_cnew (b : Fin 32768) (j : Fin 512) :
    val_main_v52 (F := Ideal) a0 a1 a2 a3 a4 a5 a6 a7 a8 a9 a10 a11 a12 a13 a20 a21 a22 a23 (ix2 b j) = cnew W (rowOf a0 b) (rowOf a2 b) (rowOf a3 b) j := by
  rw [val_main_v52_apply, val_main_v39_apply, val_main_v38_apply, idx_v38, val_main_v37_apply, cst_v36,
    val_main_v51_apply, val_main_v50_apply, idx_v50, ref_igate hW, val_main_v49_apply, val_main_v48_apply,
    val_main_v45_apply, val_main_v43_apply, ref_zc hW, bias_v42, dot_v44, bias_v47]
  simp only [Ideal.addf_def, Ideal.subf_def, Ideal.mulf_def, Ideal.hostUnary_tanh_def]
  rw [add_bias_pair]
  subst hW; rfl

/-- The product `⟨z, wzo⟩` of the output gate's pre-activation. -/
theorem ref_zo (b : Fin 32768) :
    val_main_v53 (F := Ideal) a0 a1 a2 a4 a5 a14 a20 a21 a22 a23 (ix2 b (0 : Fin 1))
      = ∑ k, zrow W (rowOf a0 b) (rowOf a2 b) k * a14 (ix2 k (0 : Fin 1)) := by
  rw [val_main_v53_apply]
  refine Finset.sum_congr rfl fun k _ => ?_
  rw [show lidx_main_v53 (ix2 b (0 : Fin 1)) k = ix2 b k by coords,
    show ridx_main_v53 (ix2 b (0 : Fin 1)) k = ix2 k (0 : Fin 1) by coords, ref_z hW]

/-- The product `⟨c', wco⟩` of the output gate's pre-activation. -/
theorem ref_co (b : Fin 32768) :
    val_main_v62 (F := Ideal) a0 a1 a2 a3 a4 a5 a6 a7 a8 a9 a10 a11 a12 a13 a18 a20 a21 a22 a23 (ix2 b (0 : Fin 1))
      = ∑ k, cnew W (rowOf a0 b) (rowOf a2 b) (rowOf a3 b) k * a18 (ix2 k (0 : Fin 1)) := by
  rw [val_main_v62_apply]
  refine Finset.sum_congr rfl fun k _ => ?_
  rw [show lidx_main_v62 (ix2 b (0 : Fin 1)) k = ix2 b k by coords,
    show ridx_main_v62 (ix2 b (0 : Fin 1)) k = ix2 k (0 : Fin 1) by coords, ref_cnew hW]

/-- The output gate: the three biases, added one after each product, are the specification's `bo`. -/
theorem ref_ogate (b : Fin 32768) :
    val_main_v72 (F := Ideal) a0 a1 a2 a3 a4 a5 a6 a7 a8 a9 a10 a11 a12 a13 a14 a15 a16 a17 a18 a19 a20 a21 a22 a23 (ix2 b (0 : Fin 1))
      = ogateOf W (zrow W (rowOf a0 b) (rowOf a2 b)) (rowOf a2 b) (cnew W (rowOf a0 b) (rowOf a2 b) (rowOf a3 b)) := by
  rw [val_main_v72_apply, val_main_v70_apply, val_main_v68_apply, val_main_v67_apply, val_main_v66_apply,
    val_main_v63_apply, val_main_v61_apply, val_main_v58_apply, val_main_v56_apply, cst_v71, cst_v69,
    ref_zo hW, bias_v55, dot_v57, bias_v60, ref_co hW, bias_v65]
  simp only [Ideal.addf_def, Ideal.hostDivf_def, Ideal.hostUnary_exp_def, Ideal.hostNegf_def, Ideal.negf_def]
  rw [add_bias_triple, div_one_add_exp_neg]
  subst hW; rfl

/-- The new hidden state (the program's first result). -/
theorem ref_hnew (b : Fin 32768) (j : Fin 512) :
    val_main_v75 (F := Ideal) a0 a1 a2 a3 a4 a5 a6 a7 a8 a9 a10 a11 a12 a13 a14 a15 a16 a17 a18 a19 a20 a21 a22 a23 (ix2 b j) = hnew W (rowOf a0 b) (rowOf a2 b) (rowOf a3 b) j := by
  rw [val_main_v75_apply, val_main_v74_apply, idx_v74, ref_ogate hW, val_main_v73_apply, ref_cnew hW,
    Ideal.mulf_def, Ideal.hostUnary_tanh_def]
  rfl

end Stages

/-! ## The three results of the whole batch -/

section Results

variable
  (a0 : (⟨S32768x1024, .f32⟩ : BufTy).Contents (Elt Ideal))
  (a1 : (⟨S512x512, .f32⟩ : BufTy).Contents (Elt Ideal))
  (a2 : (⟨S32768x512, .f32⟩ : BufTy).Contents (Elt Ideal))
  (a3 : (⟨S32768x512, .f32⟩ : BufTy).Contents (Elt Ideal))
  (a4 : (⟨S1024x512, .f32⟩ : BufTy).Contents (Elt Ideal))
  (a5 : (⟨S512, .f32⟩ : BufTy).Contents (Elt Ideal))
  (a6 : (⟨S512x1, .f32⟩ : BufTy).Contents (Elt Ideal))
  (a7 : (⟨S1, .f32⟩ : BufTy).Contents (Elt Ideal))
  (a8 : (⟨S512x1, .f32⟩ : BufTy).Contents (Elt Ideal))
  (a9 : (⟨S1, .f32⟩ : BufTy).Contents (Elt Ideal))
  (a10 : (⟨S512x512, .f32⟩ : BufTy).Contents (Elt Ideal))
  (a11 : (⟨S512, .f32⟩ : BufTy).Contents (Elt Ideal))
  (a12 : (⟨S512x512, .f32⟩ : BufTy).Contents (Elt Ideal))
  (a13 : (⟨S512, .f32⟩ : BufTy).Contents (Elt Ideal))
  (a14 : (⟨S512x1, .f32⟩ : BufTy).Contents (Elt Ideal))
  (a15 : (⟨S1, .f32⟩ : BufTy).Contents (Elt Ideal))
  (a16 : (⟨S512x1, .f32⟩ : BufTy).Contents (Elt Ideal))
  (a17 : (⟨S1, .f32⟩ : BufTy).Contents (Elt Ideal))
  (a18 : (⟨S512x1, .f32⟩ : BufTy).Contents (Elt Ideal))
  (a19 : (⟨S1, .f32⟩ : BufTy).Contents (Elt Ideal))
  (a20 : (⟨S512x512, .f32⟩ : BufTy).Contents (Elt Ideal))
  (a21 : (⟨S512, .f32⟩ : BufTy).Contents (Elt Ideal))
  (a22 : (⟨S512x512, .f32⟩ : BufTy).Contents (Elt Ideal))
  (a23 : (⟨S512, .f32⟩ : BufTy).Contents (Elt Ideal))

/-- The reference's third result is the specification's relation combination. -/
theorem ref_r :
    val_main_v19 (F := Ideal) a0 a1 a2 a4 a5 a20 a21 a22 a23 = wholeR (argWeights a1 a4 a5 a6 a7 a8 a9 a10 a11 a12 a13 a14 a15 a16 a17 a18 a19 a20 a21 a22 a23) a0 a2 := by
  funext i
  rw [eq_ix2 i]
  exact ref_rcomb rfl (i 0) (i 1)

/-- The reference's second result is the specification's new cell state. -/
theorem ref_c :
    val_main_v52 (F := Ideal) a0 a1 a2 a3 a4 a5 a6 a7 a8 a9 a10 a11 a12 a13 a20 a21 a22 a23 = wholeC (argWeights a1 a4 a5 a6 a7 a8 a9 a10 a11 a12 a13 a14 a15 a16 a17 a18 a19 a20 a21 a22 a23) a0 a2 a3 := by
  funext i
  rw [eq_ix2 i]
  exact ref_cnew rfl (i 0) (i 1)

/-- The reference's first result is the specification's new hidden state. -/
theorem ref_h :
    val_main_v75 (F := Ideal) a0 a1 a2 a3 a4 a5 a6 a7 a8 a9 a10 a11 a12 a13 a14 a15 a16 a17 a18 a19 a20 a21 a22 a23 = wholeH (argWeights a1 a4 a5 a6 a7 a8 a9 a10 a11 a12 a13 a14 a15 a16 a17 a18 a19 a20 a21 a22 a23) a0 a2 a3 := by
  funext i
  rw [eq_ix2 i]
  exact ref_hnew rfl (i 0) (i 1)

end Results

end Cert.GatedCell.Ref

end
-- ==== Proof.lean ====
/-
  A gated recurrent cell over a batch of 32768 rows: the Pallas kernel against its plain jnp reference.

  Both programs compute, for every batch row, the same cell (Proof/Spec.lean): a projection of x_bar, attention
  weights over 512 relations by a logistic function, the weighted relation combination r, z = h + r, a scalar input
  gate, the new cell state c' = (1 - i)·c + i·tanh(…), a scalar output gate and the new hidden state h' = o·tanh c'.
  The kernel cuts the batch into 64 blocks of 512 rows, multiplies in bf16 (the identity on the extended reals),
  forms the three (512, 1) gate products as row sums of elementwise products, and receives the biases that are
  always added together already summed; the reference works on the whole batch, uses matrix products throughout,
  adds each bias right after its product, and spells the logistic function as 1 / (1 + e^(-x)).

  Over the extended reals these are one function of the arguments. A row of a result depends on that row of the
  inputs only, so the 64 blocks written back are the blocks of the whole-batch function (Proof/KernelBlocks.lean,
  over the body read entry by entry in Proof/KernelPay.lean); a product into a zero accumulator and a row sum of
  products are the same finite sum; re-associating sums of biases uses only that addition is associative and
  commutative, which holds with infinite values too, so the inputs' finiteness is never used; and the quotient
  spelling of the logistic function is its definition (Proof/RefValue.lean reads the reference stage by stage).
  The ideal pass rewrote nothing in the kernel, so the kernel's idealization is its own text.
-/
import proofs.«150214_j2525440770621_2_alg».proof.Defs
import proofs.«150214_j2525440770621_2_alg».proof.Proof.Gen.Kernel
import proofs.«150214_j2525440770621_2_alg».proof.Proof.Gen.Kernel.Frame
import proofs.«150214_j2525440770621_2_alg».proof.Proof.Gen.KernelIdeal
import proofs.«150214_j2525440770621_2_alg».proof.Proof.Gen.KernelIdeal.Frame
import proofs.«150214_j2525440770621_2_alg».proof.Proof.Gen.ReferenceIdeal
import proofs.«150214_j2525440770621_2_alg».proof.Proof.Gen.Pre_finite_inputs
import proofs.«150214_j2525440770621_2_alg».proof.Proof.Gen.ReferenceIdeal.Run
import proofs.«150214_j2525440770621_2_alg».proof.Proof.Gen.ReferenceIdeal.Read
import proofs.«150214_j2525440770621_2_alg».proof.Proof.KernelBlocks
import proofs.«150214_j2525440770621_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- No operation of the kernel was rewritten by the idealization. -/
theorem preserves : Cert.preserves_Kernel_KernelIdeal := trivial

/-! ## The reference's results, from arguments that agree with the kernel's -/

section agreement

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's arguments on core `c` are the kernel's. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)

/-- The reference's first result is the new hidden state of the kernel's arguments. -/
theorem reference_h (hag : Agree m m' c) :
    Cert.ReferenceIdeal.Read.val_main_v75 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.GatedCell.wholeH (Cert.GatedCell.Kernel.argW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨e0, e1, e2, e3, e4, e5, e6, e7, e8, e9, e10, e11, e12, e13, e14, e15, e16, e17, e18, e19, e20, e21, e22, e23⟩ := hag
  rw [Cert.GatedCell.Ref.ref_h, e0, e1, e2, e3, e4, e5, e6, e7, e8, e9, e10, e11, e12, e13, e14, e15, e16, e17, e18, e19, e20, e21, e22, e23]
  rfl

/-- The reference's second result is the new cell state of the kernel's arguments. -/
theorem reference_c (hag : Agree m m' c) :
    Cert.ReferenceIdeal.Read.val_main_v52 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.GatedCell.wholeC (Cert.GatedCell.Kernel.argW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨e0, e1, e2, e3, e4, e5, e6, e7, e8, e9, e10, e11, e12, e13, e14, e15, e16, e17, e18, e19, e20, e21, e22, e23⟩ := hag
  rw [Cert.GatedCell.Ref.ref_c (a14 := m' ((c.tc : Thread Cert.ReferenceIdeal.nD Cert.ReferenceIdeal.τ).loc Cert.ReferenceIdeal.main_arg14)) (a15 := m' ((c.tc : Thread Cert.ReferenceIdeal.nD Cert.ReferenceIdeal.τ).loc Cert.ReferenceIdeal.main_arg15)) (a16 := m' ((c.tc : Thread Cert.ReferenceIdeal.nD Cert.ReferenceIdeal.τ).loc Cert.ReferenceIdeal.main_arg16)) (a17 := m' ((c.tc : Thread Cert.ReferenceIdeal.nD Cert.ReferenceIdeal.τ).loc Cert.ReferenceIdeal.main_arg17)) (a18 := m' ((c.tc : Thread Cert.ReferenceIdeal.nD Cert.ReferenceIdeal.τ).loc Cert.ReferenceIdeal.main_arg18)) (a19 := m' ((c.tc : Thread Cert.ReferenceIdeal.nD Cert.ReferenceIdeal.τ).loc Cert.ReferenceIdeal.main_arg19)),
    e0, e1, e2, e3, e4, e5, e6, e7, e8, e9, e10, e11, e12, e13, e14, e15, e16, e17, e18, e19, e20, e21, e22, e23]
  rfl

/-- The reference's third result is the relation combination of the kernel's arguments. -/
theorem reference_r (hag : Agree m m' c) :
    Cert.ReferenceIdeal.Read.val_main_v19 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.GatedCell.wholeR (Cert.GatedCell.Kernel.argW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  obtain ⟨e0, e1, e2, e3, e4, e5, e6, e7, e8, e9, e10, e11, e12, e13, e14, e15, e16, e17, e18, e19, e20, e21, e22, e23⟩ := hag
  rw [Cert.GatedCell.Ref.ref_r (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)),
    e0, e1, e2, e4, e5, e6, e7, e8, e9, e10, e11, e12, e13, e14, e15, e16, e17, e18, e19, e20, e21, e22, e23]
  rfl

end agreement

/-- From arguments that agree, the kernel's three result arrays and the reference's three results are the same
    functions of the arguments: the new hidden state, the new cell state and the relation combination of the whole
    batch. -/
theorem algebraic : Cert.algebraic_KernelIdeal_ReferenceIdeal := by
  intro m ρ m' ρ' _ hagree
  refine ⟨_, _, _, Cert.GatedCell.Kernel.run m ρ, ?_⟩
  exact (θ_run Cert.ReferenceIdeal.defs _ _).mono
    (fun _ h c => ⟨
      (h c).1.trans ((Cert.ReferenceIdeal.Read.val_main_v75_eq m' c).trans (reference_h m m' c (hagree c))),
      (h c).2.1.trans ((Cert.ReferenceIdeal.Read.val_main_v52_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))).trans
        (reference_c m m' c (hagree c))),
      (h c).2.2.1.trans ((Cert.ReferenceIdeal.Read.val_main_v19_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))).trans
        (reference_r m m' c (hagree c))),
      (h c).2.2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
